-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩
abbrev S256x1024 : Shape := ⟨2, ![256, 1024]⟩
abbrev S256x3072 : Shape := ⟨2, ![256, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 33
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S4096x3072, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S2x2048x16x64, .bf16⟩
  | .hbm, ⟨15, _⟩ => ⟨S2x16x2048x64, .bf16⟩
  | .hbm, ⟨16, _⟩ => ⟨S32x2048x64, .bf16⟩
  | .hbm, ⟨17, _⟩ => ⟨S2x2048x16x64, .bf16⟩
  | .hbm, ⟨18, _⟩ => ⟨S2x16x2048x64, .bf16⟩
  | .hbm, ⟨19, _⟩ => ⟨S32x2048x64, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S32x2048x64, .bf16⟩
  | .hbm, ⟨24, _⟩ => ⟨S32x2048x2048, .f32⟩
  | .hbm, ⟨25, _⟩ => ⟨S2x16x2048x64, .bf16⟩
  | .hbm, ⟨26, _⟩ => ⟨S2x2048x16x64, .bf16⟩
  | .hbm, ⟨27, _⟩ => ⟨S4096x1024, .bf16⟩
  | .hbm, ⟨28, _⟩ => ⟨S2x16x2048x2048, .f32⟩
  | .hbm, ⟨29, _⟩ => ⟨S1024x1024, .f32⟩
  | .hbm, ⟨30, _⟩ => ⟨S1024x1024, .bf16⟩
  | .hbm, ⟨31, _⟩ => ⟨S4096x1024, .f32⟩
  | .hbm, ⟨32, _⟩ => ⟨S2x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S256x3072, .bf16⟩
  | .local _ .vmem, ⟨4, _⟩ => ⟨S256x3072, .bf16⟩
  | .local _ .vmem, ⟨5, _⟩ => ⟨S1x512x64, .bf16⟩
  | .local _ .vmem, ⟨6, _⟩ => ⟨S1x512x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x2048, .f32⟩
  | .local _ .vmem, ⟨14, _⟩ => ⟨S1x512x2048, .f32⟩
  | .local _ .vmem, ⟨15, _⟩ => ⟨S256x1024, .bf16⟩
  | .local _ .vmem, ⟨16, _⟩ => ⟨S256x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  bitsLt_bf16_f32 : FTy.bits .bf16 < FTy.bits .f32
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S32x2048x2048_S2x16x2048x2048 : S32x2048x2048.ShapeCasts S2x16x2048x2048
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S256x1024_S1024x3072_S256x3072_1_0_0_1_n_n_wf : DotDims.WF S256x1024 S1024x3072 S256x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S4096x3072.size a
  hwx0_2 : ∀ i : grid0.Coords, EltTy.bits .bf16 = 32 ∨ (Rect.block (s := S4096x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S32x2048x2048.size a
  hwx1_4 : ∀ i : grid1.Coords, EltTy.bits .f32 = 32 ∨ (Rect.block (s := S32x2048x2048) S1x512x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S4096x1024.size a
  hwx2_2 : ∀ i : grid2.Coords, EltTy.bits .f32 = 32 ∨ (Rect.block (s := S4096x1024) S256x1024.size (cc2_transform_2 i) (hinb2_2 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18_0) S1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KB.Data.lean ====
/-
  The three kernel regions of the program as data, at any float instance: for each region, a window's block at a grid
  point read off the array the region finds; what one run of the body leaves in each output window's buffer (one store
  covering the whole block, its value the body's arithmetic of the blocks it loaded); the bookkeeping record the launch
  theorems take (arrays as found, buffers after the body, nothing owed). Then the contents of every buffer at each
  boundary of the main function, as a fold from the launch memory: a stretch of host operations applies them in
  order, a region replaces each of its arrays by what its write-backs leave.
-/
import proofs.«114147_j40827959116479_2_alg».proof.Proof.Gen.Kernel.Launch
import proofs.«114147_j40827959116479_2_alg».proof.Proof.Gen.Kernel.Skeleton
import proofs.«114147_j40827959116479_2_alg».proof.Proof.Gen.Kernel.Points
import proofs.«114147_j40827959116479_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Halves

-- the contents of the core's buffers when a region is entered: every region's half is stated at this parameter
variable (V : (c : Dev nD) → (b : Ref sig .tc) → Buf (Elt F) ((c : Thread nD τ).loc b))

/-! ## The whole-buffer rectangles the bodies load and store through -/

abbrev rA : Rect S256x1024 := Rect.unit (s := S256x1024) ![0, 0] S256x1024.size inb_S256x1024_S256x1024_0_0
abbrev rW3 : Rect S1024x3072 := Rect.unit (s := S1024x3072) ![0, 0] S1024x3072.size inb_S1024x3072_S1024x3072_0_0
abbrev rO3 : Rect S256x3072 := Rect.unit (s := S256x3072) ![0, 0] S256x3072.size inb_S256x3072_S256x3072_0_0
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0
abbrev rP : Rect S1x512x2048 := Rect.unit (s := S1x512x2048) ![0, 0, 0] S1x512x2048.size inb_S1x512x2048_S1x512x2048_0_0_0
abbrev rW1 : Rect S1024x1024 := Rect.unit (s := S1024x1024) ![0, 0] S1024x1024.size inb_S1024x1024_S1024x1024_0_0

/-! ## Region 0: the projection of the flattened input by the three stacked weight matrices -/

/-- Window `w`'s block at point `t` of region 0, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: one store over the whole block, of the product of the two loaded blocks. -/
def out0_2 (x0 : Vec F S256x1024 .bf16) (x1 : Vec F S1024x3072 .bf16) : Vec F S256x3072 .bf16 :=
  View.canon [⟨rO3, k0_pay1 (View.ld x0 rA) (View.ld x1 rW3)⟩]

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0_2 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0_2 (blk0 V c 0 t) (blk0 V c 1 t) := by dsimp only [dat0]

/-! ## Region 1: one head's attention on a tile of 512 queries against all 2048 keys -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attended-values block after the body: the weights times the values, stored over the whole block. -/
def out1_3 (x0 : Vec F S1x512x64 .bf16) (x1 : Vec F S1x2048x64 .bf16) (x2 : Vec F S1x2048x64 .bf16) : Vec F S1x512x64 .bf16 :=
  View.canon [⟨rQ, k1_pay3 (View.ld x0 rQ) (View.ld x1 rKV) (View.ld x2 rKV)⟩]

/-- The weights block after the body: each query row's softmax of its scaled scores, stored over the whole block. -/
def out1_4 (x0 : Vec F S1x512x64 .bf16) (x1 : Vec F S1x2048x64 .bf16) (x2 : Vec F S1x2048x64 .bf16) : Vec F S1x512x2048 .f32 :=
  View.canon [⟨rP, k1_pay2 (View.ld x0 rQ) (View.ld x1 rKV)⟩]

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1_3 (blk1 V c 0 t) (blk1 V c 1 t) (blk1 V c 2 t)
    | ⟨4, _⟩ => out1_4 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1_3 (blk1 V c 0 t) (blk1 V c 1 t) (blk1 V c 2 t) := by dsimp only [dat1]
theorem after1_4 (c : Dev nD) (t : Fin cfg1.N) : (dat1 V c).after 4 t = out1_4 (blk1 V c 0 t) (blk1 V c 1 t) (blk1 V c 2 t) := by dsimp only [dat1]

/-! ## Region 2: the output projection -/

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S256x1024 .bf16) (x1 : Vec F S1024x1024 .bf16) : Vec F S256x1024 .f32 :=
  View.canon [⟨rA, k2_pay1 (View.ld x0 rA) (View.ld x1 rW1)⟩]

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2_2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2_2 (blk2 V c 0 t) (blk2 V c 1 t) := by dsimp only [dat2]

end Halves

/-! ## The buffers' contents at each boundary of the main function -/

variable (m : (ℓ : Loc nD τ sig) → Buf (Elt F) ℓ) (ρ : Dev nD → PrngReg)

/-- At launch. -/
abbrev B0 : Dev nD → Valuation τ sig (Elt F) := fun c b => (s₀ m ρ).mem ((c : Dev nD), b)
/-- After the first stretch of host operations: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the write-backs leave, everything else as entered. -/
def B2 (c : Dev nD) : Valuation τ sig (Elt F) :=
  Pipeline.withArrays spec0 c (B1 m ρ c) fun w => (dat0 (E1 m ρ) c).arrAt w cfg0.N
abbrev E2 : (c : Dev nD) → (b : Ref sig .tc) → Buf (Elt F) ((c : Thread nD τ).loc b) := fun c b => B2 m ρ c b
/-- After the second stretch: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (E3 m ρ) c).arrAt w cfg1.N
abbrev E4 : (c : Dev nD) → (b : Ref sig .tc) → Buf (Elt F) ((c : Thread nD τ).loc b) := fun c b => B4 m ρ c b
/-- After the third stretch: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
def B6 (c : Dev nD) : Valuation τ sig (Elt F) :=
  Pipeline.withArrays spec2 c (B5 m ρ c) fun w => (dat2 (E5 m ρ) c).arrAt w cfg2.N
abbrev E6 : (c : Dev nD) → (b : Ref sig .tc) → Buf (Elt F) ((c : Thread nD τ).loc b) := fun c b => B6 m ρ c b
/-- After the last stretch: what the main function returns from. -/
abbrev B7 : Dev nD → Valuation τ sig (Elt F) := fun c => StableHlo.after hostOps3 (B6 m ρ c)

theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb

/-- Every region's bookkeeping record, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c

end Cert.Kernel.Frm

end
-- ==== Proof.KB.Body0.lean ====
/-
  Region 0 (the projection by the stacked weights): what the body does to the three windows' buffers at any grid point.
  The two input windows' buffers hold their blocks at every point; the body loads both, loads the output buffer,
  and stores the product over the whole output buffer, so the output buffer ends at the one-piece canonical
  form of that store whatever it held; the region's invariant and the core's debts pass through untouched.
-/
import proofs.«114147_j40827959116479_2_alg».proof.Proof.KB.Data

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem inBefore0_0 (c : Dev nD) (t : Fin cfg0.N) (d) : (dat0 V c).before 0 t d = blk0 V c 0 t :=
  inBefore0_0_of V (dat0 V c) (A_eq0 V c 0) (after0_0 V c) t d

/-- Input window 1 is uncut and never idle, and the body leaves its block in place: so at every point its current
    buffer holds the block there, whether the point fetched it or the block index stood still since the last fetch. -/
theorem inBefore0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem inBefore0_1 (c : Dev nD) (t : Fin cfg0.N) (d) : (dat0 V c).before 1 t d = blk0 V c 1 t :=
  inBefore0_1_of V (dat0 V c) (A_eq0 V c 1) (after0_1 V c) t d

/-- The one store's rectangle is the whole output block, so every index of the block lies in it. -/
theorem covers0_2 (p0 : Vec F S256x3072 .bf16) (y : S256x3072.Idx) :
    ∃ pc ∈ ([⟨rO3, p0⟩] : List (View.Piece (Elt F) S256x3072 .bf16)), y ∈ pc.1.set :=
  View.cover_of_tiled [⟨rO3, p0⟩] S256x3072.size (by rfl) y

set_option maxHeartbeats 1000000 in
/-- The body on whole buffers: the inputs' at contents x0, x1 and the output's at anything run to the continuation
    with the inputs' unchanged and the output's at out0_2 x0 x1. -/
theorem kernel0_triple (c : Dev nD) (E : Set ℕ) (i : grid0.Coords)
    (arg0 : Memref sig .tc .vmem S256x1024 .bf16) (harg0 : arg0.IsWhole)
    (arg1 : Memref sig .tc .vmem S1024x3072 .bf16) (harg1 : arg1.IsWhole)
    (arg2 : Memref sig .tc .vmem S256x3072 .bf16) (harg2 : arg2.IsWhole)
    (x0 : Vec F S256x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- What the body is called with at point t: the invariant, the core's debts, and each window's current buffer. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, each buffer at what the record says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple on whole buffers applies. -/
theorem body0_triple (c : Dev nD) (t : Fin cfg0.N) :
    pre0 V c t ⊢ wp frame (wpE (defs₀ (F := F)) Variants.none c none) Set.univ (bodyAt0 t) (fun _ => post0 V c t) := by
  unfold pre0 post0 bodyAt0
  simp only [inBefore0_0, inBefore0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0's record, at every point. -/
theorem body_obligation0 (c : Dev nD) : BodyObligation (dat0 (F := F) V c) (defs₀ (F := F)) Variants.none () Set.univ := fun t => by
  rw [bigSep_W0, bigSep_W0]
  exact body0_triple V c t

end

end Cert.Kernel.Frm

end
-- ==== Proof.KB.Body1.lean ====
/-
  Region 1 (one head's attention on a tile of queries): what the body does to the five windows' buffers at any grid
  point. The three input windows' buffers hold their blocks at every point; the body loads the three, loads the
  weights buffer and stores the softmax weights over the whole of it, then loads the attended-values buffer and stores
  the weighted values over the whole of it; so each output buffer ends at the one-piece canonical form of its store
  whatever it held; the region's invariant and the core's debts pass through untouched.
-/
import proofs.«114147_j40827959116479_2_alg».proof.Proof.KB.Data

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem inBefore1_0 (c : Dev nD) (t : Fin cfg1.N) (d) : (dat1 V c).before 0 t d = blk1 V c 0 t :=
  inBefore1_0_of V (dat1 V c) (A_eq1 V c 0) (after1_0 V c) t d

/-- Input window 1 is uncut and never idle, and the body leaves its block in place: so at every point its current
    buffer holds the block there, whether the point fetched it or the block index stood still since the last fetch. -/
theorem inBefore1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem inBefore1_1 (c : Dev nD) (t : Fin cfg1.N) (d) : (dat1 V c).before 1 t d = blk1 V c 1 t :=
  inBefore1_1_of V (dat1 V c) (A_eq1 V c 1) (after1_1 V c) t d

/-- Input window 2 is uncut and never idle, and the body leaves its block in place: so at every point its current
    buffer holds the block there, whether the point fetched it or the block index stood still since the last fetch. -/
theorem inBefore1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem inBefore1_2 (c : Dev nD) (t : Fin cfg1.N) (d) : (dat1 V c).before 2 t d = blk1 V c 2 t :=
  inBefore1_2_of V (dat1 V c) (A_eq1 V c 2) (after1_2 V c) t d

/-- The attended-values store's rectangle is the whole block, so every index of the block lies in it. -/
theorem covers1_3 (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

/-- The weights store's rectangle is the whole block, so every index of the block lies in it. -/
theorem covers1_4 (p0 : Vec F S1x512x2048 .f32) (y : S1x512x2048.Idx) :
    ∃ pc ∈ ([⟨rP, p0⟩] : List (View.Piece (Elt F) S1x512x2048 .f32)), y ∈ pc.1.set :=
  View.cover_of_tiled [⟨rP, p0⟩] S1x512x2048.size (by rfl) y

set_option maxHeartbeats 1000000 in
/-- The body on whole buffers: the inputs' at contents x0, x1, x2 and the outputs' at anything run to the continuation
    with the inputs' unchanged and the outputs' at out1_3 and out1_4 of the inputs. -/
theorem kernel1_triple (c : Dev nD) (E : Set ℕ) (i : grid1.Coords)
    (arg0 : Memref sig .tc .vmem S1x512x64 .bf16) (harg0 : arg0.IsWhole)
    (arg1 : Memref sig .tc .vmem S1x2048x64 .bf16) (harg1 : arg1.IsWhole)
    (arg2 : Memref sig .tc .vmem S1x2048x64 .bf16) (harg2 : arg2.IsWhole)
    (arg3 : Memref sig .tc .vmem S1x512x64 .bf16) (harg3 : arg3.IsWhole)
    (arg4 : Memref sig .tc .vmem S1x512x2048 .f32) (harg4 : arg4.IsWhole)
    (x0 : Vec F S1x512x64 .bf16) (x1 : Vec F S1x2048x64 .bf16) (x2 : Vec F S1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_3 _)
  iexists _; isplitr
  swap; · iexact H4
  ipureintro
  exact View.read_writes_eq_canon _ _ _ (covers1_4 _)

/-- What the body is called with at point t: the invariant, the core's debts, and each window's current buffer. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debts, each buffer at what the record says the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple on whole buffers applies. -/
theorem body1_triple (c : Dev nD) (t : Fin cfg1.N) :
    pre1 V c t ⊢ wp frame (wpE (defs₀ (F := F)) Variants.none c none) Set.univ (bodyAt1 t) (fun _ => post1 V c t) := by
  unfold pre1 post1 bodyAt1
  simp only [inBefore1_0, inBefore1_1, inBefore1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (kernel1_triple c Set.univ _ _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1's record, at every point. -/
theorem body_obligation1 (c : Dev nD) : BodyObligation (dat1 (F := F) V c) (defs₀ (F := F)) Variants.none () Set.univ := fun t => by
  rw [bigSep_W1, bigSep_W1]
  exact body1_triple V c t

end

end Cert.Kernel.Frm

end
-- ==== Proof.KB.Body2.lean ====
/-
  Region 2 (the output projection): what the body does to the three windows' buffers at any grid point. The two
  input windows' buffers hold their blocks at every point; the body loads both, loads the output buffer, and stores
  the product over the whole output buffer, so the output buffer ends at the one-piece canonical form of that
  store whatever it held; the region's invariant and the core's debts pass through untouched.
-/
import proofs.«114147_j40827959116479_2_alg».proof.Proof.KB.Data

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem inBefore2_0 (c : Dev nD) (t : Fin cfg2.N) (d) : (dat2 V c).before 0 t d = blk2 V c 0 t :=
  inBefore2_0_of V (dat2 V c) (A_eq2 V c 0) (after2_0 V c) t d

/-- Input window 1 is uncut and never idle, and the body leaves its block in place: so at every point its current
    buffer holds the block there, whether the point fetched it or the block index stood still since the last fetch. -/
theorem inBefore2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem inBefore2_1 (c : Dev nD) (t : Fin cfg2.N) (d) : (dat2 V c).before 1 t d = blk2 V c 1 t :=
  inBefore2_1_of V (dat2 V c) (A_eq2 V c 1) (after2_1 V c) t d

/-- The one store's rectangle is the whole output block, so every index of the block lies in it. -/
theorem covers2_2 (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

set_option maxHeartbeats 1000000 in
/-- The body on whole buffers: the inputs' at contents x0, x1 and the output's at anything run to the continuation
    with the inputs' unchanged and the output's at out2_2 x0 x1. -/
theorem kernel2_triple (c : Dev nD) (E : Set ℕ) (i : grid2.Coords)
    (arg0 : Memref sig .tc .vmem S256x1024 .bf16) (harg0 : arg0.IsWhole)
    (arg1 : Memref sig .tc .vmem S1024x1024 .bf16) (harg1 : arg1.IsWhole)
    (arg2 : Memref sig .tc .vmem S256x1024 .f32) (harg2 : arg2.IsWhole)
    (x0 : Vec F S256x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2_2 _)

/-- What the body is called with at point t: the invariant, the core's debts, and each window's current buffer. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, each buffer at what the record says the body leaves. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple on whole buffers applies. -/
theorem body2_triple (c : Dev nD) (t : Fin cfg2.N) :
    pre2 V c t ⊢ wp frame (wpE (defs₀ (F := F)) Variants.none c none) Set.univ (bodyAt2 t) (fun _ => post2 V c t) := by
  unfold pre2 post2 bodyAt2
  simp only [inBefore2_0, inBefore2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2's record, at every point. -/
theorem body_obligation2 (c : Dev nD) : BodyObligation (dat2 (F := F) V c) (defs₀ (F := F)) Variants.none () Set.univ := fun t => by
  rw [bigSep_W2, bigSep_W2]
  exact body2_triple V c t

end

end Cert.Kernel.Frm

end
-- ==== Proof.KB.Run.lean ====
/-
  The run of the main function: seven segments in order, a stretch of host operations, then a kernel region, and so on
  to the last stretch. The thread state between two segments is every unscoped buffer of the core at the boundary's
  contents (the fold B0 .. B7), beside the generator register at some state and the core owing nothing. A host stretch
  moves the buffers from one boundary's contents to the next by definition of the fold; a region splits its arrays out
  of the unscoped buffers, runs its pipeline on its record, and puts the arrays back at what the write-backs leave.
  At the end every unscoped buffer is read against the final memory: it holds B7. No stretch writes an argument and no
  region has an argument among its arrays, so at an argument B7 is the launch memory.
-/
import proofs.«114147_j40827959116479_2_alg».proof.Proof.KB.Data
import proofs.«114147_j40827959116479_2_alg».proof.Proof.KB.Body0
import proofs.«114147_j40827959116479_2_alg».proof.Proof.KB.Body1
import proofs.«114147_j40827959116479_2_alg».proof.Proof.KB.Body2

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments through the fold -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

/-! ## The thread state and the host stretches as segments -/

abbrev Vr : Variants := Variants.none
/-- No core owes another anything: no pair is assigned a level. -/
abbrev noPairs : GSem nD τ sig → Finset Unit := fun _ => ∅
abbrev lvl0 : GSem nD τ sig → Unit → ℕ := fun _ _ => 0
/-- What rides beside the buffers through every segment: the generator register at some state, and the core owing nothing. -/
abbrev rider (c : Dev nD) : sProp 𝕄 := iprop((∃ r, prngReg c r) ∗ ∃ W, owes (c : Thread nD τ) (0 : CellTallies nD τ sig Unit) W)
/-- A stretch of host operations as a segment over the unscoped buffers from the contents W, the rider beside them: it
    ends with those buffers at the operations applied in order to W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- An unscoped reference of the core is among those the thread state holds. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at B7, the generator register at some state. -/
abbrev lastState (c : Dev nD) : sProp 𝕄 := iprop(StableHlo.held (c : Thread nD τ) (Pipeline.ucRefs τ sig) (B7 m ρ c) ∗ ∃ r, prngReg c r)

/-- What the last stretch ends at is the last thread state beside the core owing nothing: the same three conjuncts, regrouped. -/
theorem last_link (c : Dev nD) : iprop(StableHlo.held (c : Thread nD τ) (Pipeline.ucRefs τ sig) (B7 m ρ c) ∗ rider c)
    ⊢ iprop(lastState m ρ c ∗ ∃ W, owes (c : Thread nD τ) (0 : CellTallies nD τ sig Unit) W) := by
  iintro ⟨Hh, Hp, HO⟩
  isplitr [HO]
  · isplitl [Hh]; · iexact Hh
    iexact Hp
  iexact HO

/-! ## The regions as segments -/

/-- At region 0's exit each of its arrays holds what its write-backs leave, and every other buffer what it held at entry. -/
theorem arrs0 (c : Dev nD) (w : Fin cfg0.W) : (dat0 (E1 m ρ) c).arrAt w cfg0.N = E2 m ρ c (Pipeline.arrRef spec0 w) :=
  (B2_arr m ρ c w).symm
theorem others0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

set_option backward.isDefEq.respectTransparency.types false in
/-- Region 0 (the projection by the stacked weights) over the thread state: entered from every unscoped buffer at B1, left at B2. Its arrays are
    split out of the unscoped buffers at entry and put back at the exit contents; the generator register goes into the
    region's invariant and comes back; nothing is owed; the kernel has no semaphore of its own. -/
def region0 : Pipeline.RegionSeg (pcfgs (F := F)) adm (pdats m ρ) () defs₀ Vr noPairs lvl0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs lvl0 0 fun _ _ => rfl
  pre c := iprop(StableHlo.held (c : Thread nD τ) (Pipeline.ucRefs τ sig) (B1 m ρ c) ∗ rider c)
  post c := iprop(StableHlo.held (c : Thread nD τ) (Pipeline.ucRefs τ sig) (B2 m ρ c) ∗ rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (arrs0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what its write-backs leave, and every other buffer what it held at entry. -/
theorem arrs1 (c : Dev nD) (w : Fin cfg1.W) : (dat1 (E3 m ρ) c).arrAt w cfg1.N = E4 m ρ c (Pipeline.arrRef spec1 w) :=
  (B4_arr m ρ c w).symm
theorem others1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

set_option backward.isDefEq.respectTransparency.types false in
/-- Region 1 (the attention) over the thread state: entered from every unscoped buffer at B3, left at B4. Its arrays are
    split out of the unscoped buffers at entry and put back at the exit contents; the generator register goes into the
    region's invariant and comes back; nothing is owed; the kernel has no semaphore of its own. -/
def region1 : Pipeline.RegionSeg (pcfgs (F := F)) adm (pdats m ρ) () defs₀ Vr noPairs lvl0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noPairs lvl0 1 fun _ _ => rfl
  pre c := iprop(StableHlo.held (c : Thread nD τ) (Pipeline.ucRefs τ sig) (B3 m ρ c) ∗ rider c)
  post c := iprop(StableHlo.held (c : Thread nD τ) (Pipeline.ucRefs τ sig) (B4 m ρ c) ∗ rider c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (arrs1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what its write-backs leave, and every other buffer what it held at entry. -/
theorem arrs2 (c : Dev nD) (w : Fin cfg2.W) : (dat2 (E5 m ρ) c).arrAt w cfg2.N = E6 m ρ c (Pipeline.arrRef spec2 w) :=
  (B6_arr m ρ c w).symm
theorem others2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

set_option backward.isDefEq.respectTransparency.types false in
/-- Region 2 (the output projection) over the thread state: entered from every unscoped buffer at B5, left at B6. Its arrays are
    split out of the unscoped buffers at entry and put back at the exit contents; the generator register goes into the
    region's invariant and comes back; nothing is owed; the kernel has no semaphore of its own. -/
def region2 : Pipeline.RegionSeg (pcfgs (F := F)) adm (pdats m ρ) () defs₀ Vr noPairs lvl0 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noPairs lvl0 2 fun _ _ => rfl
  pre c := iprop(StableHlo.held (c : Thread nD τ) (Pipeline.ucRefs τ sig) (B5 m ρ c) ∗ rider c)
  post c := iprop(StableHlo.held (c : Thread nD τ) (Pipeline.ucRefs τ sig) (B6 m ρ c) ∗ rider c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (arrs2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

abbrev mainSegs : List (Pipeline.Seg (pcfgs (F := F)) adm (pdats m ρ) () defs₀ Vr noPairs lvl0) :=
  [ .host (hostStretch hostOps0 hostOps0_sub hostOps0_fresh (B0 m ρ)),
    .region (region0 m ρ),
    .host (hostStretch hostOps1 hostOps1_sub hostOps1_fresh (B2 m ρ)),
    .region (region1 m ρ),
    .host (hostStretch hostOps2 hostOps2_sub hostOps2_fresh (B4 m ρ)),
    .region (region2 m ρ),
    .host (hostStretch hostOps3 hostOps3_sub hostOps3_fresh (B6 m ρ)) ]
/-- The main function is the run of these segments. -/
theorem main_is_run (c : Dev nD) : main (F := F) c = Pipeline.Seg.run (mainSegs m ρ) := (main_chain c).trans (by chain_rfl)

set_option backward.isDefEq.respectTransparency.types false in
/-- From any memory with zero counters, every weakly fair execution of the main function on the cores terminates,
    nothing faulting, and in every final state each unscoped buffer of each core holds B7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ Vr noPairs lvl0 m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rider c)) (Tₙ := lastState m ρ)
    (hch := ⟨fun _ => .rfl, fun _ => .rfl, fun _ => .rfl, fun _ => .rfl, fun _ => .rfl, fun _ => .rfl, fun _ => .rfl, fun c => last_link m ρ c⟩)
    (hinit := by
      refine Pipeline.initEach noPairs lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- The run with its two results read and the arguments as launched: in every final state the result buffers hold B7
    and each argument holds its launch contents. -/
theorem run_vals : θ_run defs (onTc (τ := τ) (main (F := F))) ⟨m, fun _ => 0, ρ⟩ (fun r => ∀ c : Dev nD,
      r.2.mem ((c.tc : Thread nD τ).loc main_v26) = B7 m ρ c (Proc.devRef .tc main_v26)
      ∧ r.2.mem ((c.tc : Thread nD τ).loc main_v22) = B7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (unscoped_mem main_v26 (by decide)), h c _ (unscoped_mem main_v22 (by decide)),
      (h c _ (unscoped_mem main_arg0 (by decide))).trans (B7_main_arg0 m ρ c),
      (h c _ (unscoped_mem main_arg1 (by decide))).trans (B7_main_arg1 m ρ c),
      (h c _ (unscoped_mem main_arg2 (by decide))).trans (B7_main_arg2 m ρ c),
      (h c _ (unscoped_mem main_arg3 (by decide))).trans (B7_main_arg3 m ρ c),
      (h c _ (unscoped_mem main_arg4 (by decide))).trans (B7_main_arg4 m ρ c)⟩) (run_all m ρ)

/-- The frame: the run terminates and every argument ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2.2) (run_vals m ρ)

end Cert.Kernel.Frm

end
-- ==== Proof.KI.Data.lean ====
/-
  The three kernel regions of the program as data, at any float instance: for each region, a window's block at a grid
  point read off the array the region finds; what one run of the body leaves in each output window's buffer (one store
  covering the whole block, its value the body's arithmetic of the blocks it loaded); the bookkeeping record the launch
  theorems take (arrays as found, buffers after the body, nothing owed). Then the contents of every buffer at each
  boundary of the main function, as a fold from the launch memory: a stretch of host operations applies them in
  order, a region replaces each of its arrays by what its write-backs leave.
-/
import proofs.«114147_j40827959116479_2_alg».proof.Proof.Gen.KernelIdeal.Launch
import proofs.«114147_j40827959116479_2_alg».proof.Proof.Gen.KernelIdeal.Skeleton
import proofs.«114147_j40827959116479_2_alg».proof.Proof.Gen.KernelIdeal.Points
import proofs.«114147_j40827959116479_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Halves

-- the contents of the core's buffers when a region is entered: every region's half is stated at this parameter
variable (V : (c : Dev nD) → (b : Ref sig .tc) → Buf (Elt F) ((c : Thread nD τ).loc b))

/-! ## The whole-buffer rectangles the bodies load and store through -/

abbrev rA : Rect S256x1024 := Rect.unit (s := S256x1024) ![0, 0] S256x1024.size inb_S256x1024_S256x1024_0_0
abbrev rW3 : Rect S1024x3072 := Rect.unit (s := S1024x3072) ![0, 0] S1024x3072.size inb_S1024x3072_S1024x3072_0_0
abbrev rO3 : Rect S256x3072 := Rect.unit (s := S256x3072) ![0, 0] S256x3072.size inb_S256x3072_S256x3072_0_0
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0
abbrev rP : Rect S1x512x2048 := Rect.unit (s := S1x512x2048) ![0, 0, 0] S1x512x2048.size inb_S1x512x2048_S1x512x2048_0_0_0
abbrev rW1 : Rect S1024x1024 := Rect.unit (s := S1024x1024) ![0, 0] S1024x1024.size inb_S1024x1024_S1024x1024_0_0

/-! ## Region 0: the projection of the flattened input by the three stacked weight matrices -/

/-- Window `w`'s block at point `t` of region 0, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: one store over the whole block, of the product of the two loaded blocks. -/
def out0_2 (x0 : Vec F S256x1024 .bf16) (x1 : Vec F S1024x3072 .bf16) : Vec F S256x3072 .bf16 :=
  View.canon [⟨rO3, k0_pay1 (View.ld x0 rA) (View.ld x1 rW3)⟩]

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0_2 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0_2 (blk0 V c 0 t) (blk0 V c 1 t) := by dsimp only [dat0]

/-! ## Region 1: one head's attention on a tile of 512 queries against all 2048 keys -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attended-values block after the body: the weights times the values, stored over the whole block. -/
def out1_3 (x0 : Vec F S1x512x64 .bf16) (x1 : Vec F S1x2048x64 .bf16) (x2 : Vec F S1x2048x64 .bf16) : Vec F S1x512x64 .bf16 :=
  View.canon [⟨rQ, k1_pay3 (View.ld x0 rQ) (View.ld x1 rKV) (View.ld x2 rKV)⟩]

/-- The weights block after the body: each query row's softmax of its scaled scores, stored over the whole block. -/
def out1_4 (x0 : Vec F S1x512x64 .bf16) (x1 : Vec F S1x2048x64 .bf16) (x2 : Vec F S1x2048x64 .bf16) : Vec F S1x512x2048 .f32 :=
  View.canon [⟨rP, k1_pay2 (View.ld x0 rQ) (View.ld x1 rKV)⟩]

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1_3 (blk1 V c 0 t) (blk1 V c 1 t) (blk1 V c 2 t)
    | ⟨4, _⟩ => out1_4 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1_3 (blk1 V c 0 t) (blk1 V c 1 t) (blk1 V c 2 t) := by dsimp only [dat1]
theorem after1_4 (c : Dev nD) (t : Fin cfg1.N) : (dat1 V c).after 4 t = out1_4 (blk1 V c 0 t) (blk1 V c 1 t) (blk1 V c 2 t) := by dsimp only [dat1]

/-! ## Region 2: the output projection -/

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S256x1024 .bf16) (x1 : Vec F S1024x1024 .bf16) : Vec F S256x1024 .f32 :=
  View.canon [⟨rA, k2_pay1 (View.ld x0 rA) (View.ld x1 rW1)⟩]

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2_2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2_2 (blk2 V c 0 t) (blk2 V c 1 t) := by dsimp only [dat2]

end Halves

/-! ## The buffers' contents at each boundary of the main function -/

variable (m : (ℓ : Loc nD τ sig) → Buf (Elt F) ℓ) (ρ : Dev nD → PrngReg)

/-- At launch. -/
abbrev B0 : Dev nD → Valuation τ sig (Elt F) := fun c b => (s₀ m ρ).mem ((c : Dev nD), b)
/-- After the first stretch of host operations: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the write-backs leave, everything else as entered. -/
def B2 (c : Dev nD) : Valuation τ sig (Elt F) :=
  Pipeline.withArrays spec0 c (B1 m ρ c) fun w => (dat0 (E1 m ρ) c).arrAt w cfg0.N
abbrev E2 : (c : Dev nD) → (b : Ref sig .tc) → Buf (Elt F) ((c : Thread nD τ).loc b) := fun c b => B2 m ρ c b
/-- After the second stretch: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (E3 m ρ) c).arrAt w cfg1.N
abbrev E4 : (c : Dev nD) → (b : Ref sig .tc) → Buf (Elt F) ((c : Thread nD τ).loc b) := fun c b => B4 m ρ c b
/-- After the third stretch: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
def B6 (c : Dev nD) : Valuation τ sig (Elt F) :=
  Pipeline.withArrays spec2 c (B5 m ρ c) fun w => (dat2 (E5 m ρ) c).arrAt w cfg2.N
abbrev E6 : (c : Dev nD) → (b : Ref sig .tc) → Buf (Elt F) ((c : Thread nD τ).loc b) := fun c b => B6 m ρ c b
/-- After the last stretch: what the main function returns from. -/
abbrev B7 : Dev nD → Valuation τ sig (Elt F) := fun c => StableHlo.after hostOps3 (B6 m ρ c)

theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb

/-- Every region's bookkeeping record, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c

end Cert.KernelIdeal.Frm

end
-- ==== Proof.KI.Body0.lean ====
/-
  Region 0 (the projection by the stacked weights): what the body does to the three windows' buffers at any grid point.
  The two input windows' buffers hold their blocks at every point; the body loads both, loads the output buffer,
  and stores the product over the whole output buffer, so the output buffer ends at the one-piece canonical
  form of that store whatever it held; the region's invariant and the core's debts pass through untouched.
-/
import proofs.«114147_j40827959116479_2_alg».proof.Proof.KI.Data

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem inBefore0_0 (c : Dev nD) (t : Fin cfg0.N) (d) : (dat0 V c).before 0 t d = blk0 V c 0 t :=
  inBefore0_0_of V (dat0 V c) (A_eq0 V c 0) (after0_0 V c) t d

/-- Input window 1 is uncut and never idle, and the body leaves its block in place: so at every point its current
    buffer holds the block there, whether the point fetched it or the block index stood still since the last fetch. -/
theorem inBefore0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem inBefore0_1 (c : Dev nD) (t : Fin cfg0.N) (d) : (dat0 V c).before 1 t d = blk0 V c 1 t :=
  inBefore0_1_of V (dat0 V c) (A_eq0 V c 1) (after0_1 V c) t d

/-- The one store's rectangle is the whole output block, so every index of the block lies in it. -/
theorem covers0_2 (p0 : Vec F S256x3072 .bf16) (y : S256x3072.Idx) :
    ∃ pc ∈ ([⟨rO3, p0⟩] : List (View.Piece (Elt F) S256x3072 .bf16)), y ∈ pc.1.set :=
  View.cover_of_tiled [⟨rO3, p0⟩] S256x3072.size (by rfl) y

set_option maxHeartbeats 1000000 in
/-- The body on whole buffers: the inputs' at contents x0, x1 and the output's at anything run to the continuation
    with the inputs' unchanged and the output's at out0_2 x0 x1. -/
theorem kernel0_triple (c : Dev nD) (E : Set ℕ) (i : grid0.Coords)
    (arg0 : Memref sig .tc .vmem S256x1024 .bf16) (harg0 : arg0.IsWhole)
    (arg1 : Memref sig .tc .vmem S1024x3072 .bf16) (harg1 : arg1.IsWhole)
    (arg2 : Memref sig .tc .vmem S256x3072 .bf16) (harg2 : arg2.IsWhole)
    (x0 : Vec F S256x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- What the body is called with at point t: the invariant, the core's debts, and each window's current buffer. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, each buffer at what the record says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple on whole buffers applies. -/
theorem body0_triple (c : Dev nD) (t : Fin cfg0.N) :
    pre0 V c t ⊢ wp frame (wpE (defs₀ (F := F)) Variants.none c none) Set.univ (bodyAt0 t) (fun _ => post0 V c t) := by
  unfold pre0 post0 bodyAt0
  simp only [inBefore0_0, inBefore0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0's record, at every point. -/
theorem body_obligation0 (c : Dev nD) : BodyObligation (dat0 (F := F) V c) (defs₀ (F := F)) Variants.none () Set.univ := fun t => by
  rw [bigSep_W0, bigSep_W0]
  exact body0_triple V c t

end

end Cert.KernelIdeal.Frm

end
-- ==== Proof.KI.Body1.lean ====
/-
  Region 1 (one head's attention on a tile of queries): what the body does to the five windows' buffers at any grid
  point. The three input windows' buffers hold their blocks at every point; the body loads the three, loads the
  weights buffer and stores the softmax weights over the whole of it, then loads the attended-values buffer and stores
  the weighted values over the whole of it; so each output buffer ends at the one-piece canonical form of its store
  whatever it held; the region's invariant and the core's debts pass through untouched.
-/
import proofs.«114147_j40827959116479_2_alg».proof.Proof.KI.Data

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem inBefore1_0 (c : Dev nD) (t : Fin cfg1.N) (d) : (dat1 V c).before 0 t d = blk1 V c 0 t :=
  inBefore1_0_of V (dat1 V c) (A_eq1 V c 0) (after1_0 V c) t d

/-- Input window 1 is uncut and never idle, and the body leaves its block in place: so at every point its current
    buffer holds the block there, whether the point fetched it or the block index stood still since the last fetch. -/
theorem inBefore1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem inBefore1_1 (c : Dev nD) (t : Fin cfg1.N) (d) : (dat1 V c).before 1 t d = blk1 V c 1 t :=
  inBefore1_1_of V (dat1 V c) (A_eq1 V c 1) (after1_1 V c) t d

/-- Input window 2 is uncut and never idle, and the body leaves its block in place: so at every point its current
    buffer holds the block there, whether the point fetched it or the block index stood still since the last fetch. -/
theorem inBefore1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem inBefore1_2 (c : Dev nD) (t : Fin cfg1.N) (d) : (dat1 V c).before 2 t d = blk1 V c 2 t :=
  inBefore1_2_of V (dat1 V c) (A_eq1 V c 2) (after1_2 V c) t d

/-- The attended-values store's rectangle is the whole block, so every index of the block lies in it. -/
theorem covers1_3 (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

/-- The weights store's rectangle is the whole block, so every index of the block lies in it. -/
theorem covers1_4 (p0 : Vec F S1x512x2048 .f32) (y : S1x512x2048.Idx) :
    ∃ pc ∈ ([⟨rP, p0⟩] : List (View.Piece (Elt F) S1x512x2048 .f32)), y ∈ pc.1.set :=
  View.cover_of_tiled [⟨rP, p0⟩] S1x512x2048.size (by rfl) y

set_option maxHeartbeats 1000000 in
/-- The body on whole buffers: the inputs' at contents x0, x1, x2 and the outputs' at anything run to the continuation
    with the inputs' unchanged and the outputs' at out1_3 and out1_4 of the inputs. -/
theorem kernel1_triple (c : Dev nD) (E : Set ℕ) (i : grid1.Coords)
    (arg0 : Memref sig .tc .vmem S1x512x64 .bf16) (harg0 : arg0.IsWhole)
    (arg1 : Memref sig .tc .vmem S1x2048x64 .bf16) (harg1 : arg1.IsWhole)
    (arg2 : Memref sig .tc .vmem S1x2048x64 .bf16) (harg2 : arg2.IsWhole)
    (arg3 : Memref sig .tc .vmem S1x512x64 .bf16) (harg3 : arg3.IsWhole)
    (arg4 : Memref sig .tc .vmem S1x512x2048 .f32) (harg4 : arg4.IsWhole)
    (x0 : Vec F S1x512x64 .bf16) (x1 : Vec F S1x2048x64 .bf16) (x2 : Vec F S1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_3 _)
  iexists _; isplitr
  swap; · iexact H4
  ipureintro
  exact View.read_writes_eq_canon _ _ _ (covers1_4 _)

/-- What the body is called with at point t: the invariant, the core's debts, and each window's current buffer. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debts, each buffer at what the record says the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple on whole buffers applies. -/
theorem body1_triple (c : Dev nD) (t : Fin cfg1.N) :
    pre1 V c t ⊢ wp frame (wpE (defs₀ (F := F)) Variants.none c none) Set.univ (bodyAt1 t) (fun _ => post1 V c t) := by
  unfold pre1 post1 bodyAt1
  simp only [inBefore1_0, inBefore1_1, inBefore1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (kernel1_triple c Set.univ _ _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1's record, at every point. -/
theorem body_obligation1 (c : Dev nD) : BodyObligation (dat1 (F := F) V c) (defs₀ (F := F)) Variants.none () Set.univ := fun t => by
  rw [bigSep_W1, bigSep_W1]
  exact body1_triple V c t

end

end Cert.KernelIdeal.Frm

end
-- ==== Proof.KI.Body2.lean ====
/-
  Region 2 (the output projection): what the body does to the three windows' buffers at any grid point. The two
  input windows' buffers hold their blocks at every point; the body loads both, loads the output buffer, and stores
  the product over the whole output buffer, so the output buffer ends at the one-piece canonical form of that
  store whatever it held; the region's invariant and the core's debts pass through untouched.
-/
import proofs.«114147_j40827959116479_2_alg».proof.Proof.KI.Data

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0 is uncut and never idle, and the body leaves its block in place: so at every point its current
    buffer holds the block there, whether the point fetched it or the block index stood still since the last fetch. -/
theorem inBefore2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem inBefore2_0 (c : Dev nD) (t : Fin cfg2.N) (d) : (dat2 V c).before 0 t d = blk2 V c 0 t :=
  inBefore2_0_of V (dat2 V c) (A_eq2 V c 0) (after2_0 V c) t d

/-- Input window 1 is uncut and never idle, and the body leaves its block in place: so at every point its current
    buffer holds the block there, whether the point fetched it or the block index stood still since the last fetch. -/
theorem inBefore2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem inBefore2_1 (c : Dev nD) (t : Fin cfg2.N) (d) : (dat2 V c).before 1 t d = blk2 V c 1 t :=
  inBefore2_1_of V (dat2 V c) (A_eq2 V c 1) (after2_1 V c) t d

/-- The one store's rectangle is the whole output block, so every index of the block lies in it. -/
theorem covers2_2 (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

set_option maxHeartbeats 1000000 in
/-- The body on whole buffers: the inputs' at contents x0, x1 and the output's at anything run to the continuation
    with the inputs' unchanged and the output's at out2_2 x0 x1. -/
theorem kernel2_triple (c : Dev nD) (E : Set ℕ) (i : grid2.Coords)
    (arg0 : Memref sig .tc .vmem S256x1024 .bf16) (harg0 : arg0.IsWhole)
    (arg1 : Memref sig .tc .vmem S1024x1024 .bf16) (harg1 : arg1.IsWhole)
    (arg2 : Memref sig .tc .vmem S256x1024 .f32) (harg2 : arg2.IsWhole)
    (x0 : Vec F S256x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2_2 _)

/-- What the body is called with at point t: the invariant, the core's debts, and each window's current buffer. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, each buffer at what the record says the body leaves. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple on whole buffers applies. -/
theorem body2_triple (c : Dev nD) (t : Fin cfg2.N) :
    pre2 V c t ⊢ wp frame (wpE (defs₀ (F := F)) Variants.none c none) Set.univ (bodyAt2 t) (fun _ => post2 V c t) := by
  unfold pre2 post2 bodyAt2
  simp only [inBefore2_0, inBefore2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2's record, at every point. -/
theorem body_obligation2 (c : Dev nD) : BodyObligation (dat2 (F := F) V c) (defs₀ (F := F)) Variants.none () Set.univ := fun t => by
  rw [bigSep_W2, bigSep_W2]
  exact body2_triple V c t

end

end Cert.KernelIdeal.Frm

end
-- ==== Proof.KI.Run.lean ====
/-
  The run of the main function: seven segments in order, a stretch of host operations, then a kernel region, and so on
  to the last stretch. The thread state between two segments is every unscoped buffer of the core at the boundary's
  contents (the fold B0 .. B7), beside the generator register at some state and the core owing nothing. A host stretch
  moves the buffers from one boundary's contents to the next by definition of the fold; a region splits its arrays out
  of the unscoped buffers, runs its pipeline on its record, and puts the arrays back at what the write-backs leave.
  At the end every unscoped buffer is read against the final memory: it holds B7. No stretch writes an argument and no
  region has an argument among its arrays, so at an argument B7 is the launch memory.
-/
import proofs.«114147_j40827959116479_2_alg».proof.Proof.KI.Data
import proofs.«114147_j40827959116479_2_alg».proof.Proof.KI.Body0
import proofs.«114147_j40827959116479_2_alg».proof.Proof.KI.Body1
import proofs.«114147_j40827959116479_2_alg».proof.Proof.KI.Body2

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments through the fold -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

/-! ## The thread state and the host stretches as segments -/

abbrev Vr : Variants := Variants.none
/-- No core owes another anything: no pair is assigned a level. -/
abbrev noPairs : GSem nD τ sig → Finset Unit := fun _ => ∅
abbrev lvl0 : GSem nD τ sig → Unit → ℕ := fun _ _ => 0
/-- What rides beside the buffers through every segment: the generator register at some state, and the core owing nothing. -/
abbrev rider (c : Dev nD) : sProp 𝕄 := iprop((∃ r, prngReg c r) ∗ ∃ W, owes (c : Thread nD τ) (0 : CellTallies nD τ sig Unit) W)
/-- A stretch of host operations as a segment over the unscoped buffers from the contents W, the rider beside them: it
    ends with those buffers at the operations applied in order to W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- An unscoped reference of the core is among those the thread state holds. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at B7, the generator register at some state. -/
abbrev lastState (c : Dev nD) : sProp 𝕄 := iprop(StableHlo.held (c : Thread nD τ) (Pipeline.ucRefs τ sig) (B7 m ρ c) ∗ ∃ r, prngReg c r)

/-- What the last stretch ends at is the last thread state beside the core owing nothing: the same three conjuncts, regrouped. -/
theorem last_link (c : Dev nD) : iprop(StableHlo.held (c : Thread nD τ) (Pipeline.ucRefs τ sig) (B7 m ρ c) ∗ rider c)
    ⊢ iprop(lastState m ρ c ∗ ∃ W, owes (c : Thread nD τ) (0 : CellTallies nD τ sig Unit) W) := by
  iintro ⟨Hh, Hp, HO⟩
  isplitr [HO]
  · isplitl [Hh]; · iexact Hh
    iexact Hp
  iexact HO

/-! ## The regions as segments -/

/-- At region 0's exit each of its arrays holds what its write-backs leave, and every other buffer what it held at entry. -/
theorem arrs0 (c : Dev nD) (w : Fin cfg0.W) : (dat0 (E1 m ρ) c).arrAt w cfg0.N = E2 m ρ c (Pipeline.arrRef spec0 w) :=
  (B2_arr m ρ c w).symm
theorem others0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

set_option backward.isDefEq.respectTransparency.types false in
/-- Region 0 (the projection by the stacked weights) over the thread state: entered from every unscoped buffer at B1, left at B2. Its arrays are
    split out of the unscoped buffers at entry and put back at the exit contents; the generator register goes into the
    region's invariant and comes back; nothing is owed; the kernel has no semaphore of its own. -/
def region0 : Pipeline.RegionSeg (pcfgs (F := F)) adm (pdats m ρ) () defs₀ Vr noPairs lvl0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs lvl0 0 fun _ _ => rfl
  pre c := iprop(StableHlo.held (c : Thread nD τ) (Pipeline.ucRefs τ sig) (B1 m ρ c) ∗ rider c)
  post c := iprop(StableHlo.held (c : Thread nD τ) (Pipeline.ucRefs τ sig) (B2 m ρ c) ∗ rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (arrs0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what its write-backs leave, and every other buffer what it held at entry. -/
theorem arrs1 (c : Dev nD) (w : Fin cfg1.W) : (dat1 (E3 m ρ) c).arrAt w cfg1.N = E4 m ρ c (Pipeline.arrRef spec1 w) :=
  (B4_arr m ρ c w).symm
theorem others1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

set_option backward.isDefEq.respectTransparency.types false in
/-- Region 1 (the attention) over the thread state: entered from every unscoped buffer at B3, left at B4. Its arrays are
    split out of the unscoped buffers at entry and put back at the exit contents; the generator register goes into the
    region's invariant and comes back; nothing is owed; the kernel has no semaphore of its own. -/
def region1 : Pipeline.RegionSeg (pcfgs (F := F)) adm (pdats m ρ) () defs₀ Vr noPairs lvl0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noPairs lvl0 1 fun _ _ => rfl
  pre c := iprop(StableHlo.held (c : Thread nD τ) (Pipeline.ucRefs τ sig) (B3 m ρ c) ∗ rider c)
  post c := iprop(StableHlo.held (c : Thread nD τ) (Pipeline.ucRefs τ sig) (B4 m ρ c) ∗ rider c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (arrs1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what its write-backs leave, and every other buffer what it held at entry. -/
theorem arrs2 (c : Dev nD) (w : Fin cfg2.W) : (dat2 (E5 m ρ) c).arrAt w cfg2.N = E6 m ρ c (Pipeline.arrRef spec2 w) :=
  (B6_arr m ρ c w).symm
theorem others2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

set_option backward.isDefEq.respectTransparency.types false in
/-- Region 2 (the output projection) over the thread state: entered from every unscoped buffer at B5, left at B6. Its arrays are
    split out of the unscoped buffers at entry and put back at the exit contents; the generator register goes into the
    region's invariant and comes back; nothing is owed; the kernel has no semaphore of its own. -/
def region2 : Pipeline.RegionSeg (pcfgs (F := F)) adm (pdats m ρ) () defs₀ Vr noPairs lvl0 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noPairs lvl0 2 fun _ _ => rfl
  pre c := iprop(StableHlo.held (c : Thread nD τ) (Pipeline.ucRefs τ sig) (B5 m ρ c) ∗ rider c)
  post c := iprop(StableHlo.held (c : Thread nD τ) (Pipeline.ucRefs τ sig) (B6 m ρ c) ∗ rider c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (arrs2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

abbrev mainSegs : List (Pipeline.Seg (pcfgs (F := F)) adm (pdats m ρ) () defs₀ Vr noPairs lvl0) :=
  [ .host (hostStretch hostOps0 hostOps0_sub hostOps0_fresh (B0 m ρ)),
    .region (region0 m ρ),
    .host (hostStretch hostOps1 hostOps1_sub hostOps1_fresh (B2 m ρ)),
    .region (region1 m ρ),
    .host (hostStretch hostOps2 hostOps2_sub hostOps2_fresh (B4 m ρ)),
    .region (region2 m ρ),
    .host (hostStretch hostOps3 hostOps3_sub hostOps3_fresh (B6 m ρ)) ]
/-- The main function is the run of these segments. -/
theorem main_is_run (c : Dev nD) : main (F := F) c = Pipeline.Seg.run (mainSegs m ρ) := (main_chain c).trans (by chain_rfl)

set_option backward.isDefEq.respectTransparency.types false in
/-- From any memory with zero counters, every weakly fair execution of the main function on the cores terminates,
    nothing faulting, and in every final state each unscoped buffer of each core holds B7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ Vr noPairs lvl0 m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rider c)) (Tₙ := lastState m ρ)
    (hch := ⟨fun _ => .rfl, fun _ => .rfl, fun _ => .rfl, fun _ => .rfl, fun _ => .rfl, fun _ => .rfl, fun _ => .rfl, fun c => last_link m ρ c⟩)
    (hinit := by
      refine Pipeline.initEach noPairs lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- The run with its two results read and the arguments as launched: in every final state the result buffers hold B7
    and each argument holds its launch contents. -/
theorem run_vals : θ_run defs (onTc (τ := τ) (main (F := F))) ⟨m, fun _ => 0, ρ⟩ (fun r => ∀ c : Dev nD,
      r.2.mem ((c.tc : Thread nD τ).loc main_v26) = B7 m ρ c (Proc.devRef .tc main_v26)
      ∧ r.2.mem ((c.tc : Thread nD τ).loc main_v22) = B7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (unscoped_mem main_v26 (by decide)), h c _ (unscoped_mem main_v22 (by decide)),
      (h c _ (unscoped_mem main_arg0 (by decide))).trans (B7_main_arg0 m ρ c),
      (h c _ (unscoped_mem main_arg1 (by decide))).trans (B7_main_arg1 m ρ c),
      (h c _ (unscoped_mem main_arg2 (by decide))).trans (B7_main_arg2 m ρ c),
      (h c _ (unscoped_mem main_arg3 (by decide))).trans (B7_main_arg3 m ρ c),
      (h c _ (unscoped_mem main_arg4 (by decide))).trans (B7_main_arg4 m ρ c)⟩) (run_all m ρ)

/-- The frame: the run terminates and every argument ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2.2) (run_vals m ρ)

end Cert.KernelIdeal.Frm

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.RowSoft.lean ====
/-
  The softmax of one row of scores, on the extended reals, as the two programs compute it: the row's maximum as a
  fold of max from minus infinity, every score shifted by it and exponentiated, and each exponential divided by
  the row's sum of exponentials. Both programs compute exactly this of the same scores, so no law of the extended
  reals beyond the idempotence of max is needed.
-/
import Idealize.ShloMosaic.PureOps.Ideal.Laws
import Mathlib.Data.Finset.Fold
import Idealize.ShloMosaic.Lib.ValueIdx

noncomputable section

namespace Cert.RowSoft

open Idealize.ShloMosaic
open scoped BigOperators

/-- The maximum of a row of n scores, folded from the value `b`. -/
def rowMax {n : ℕ} (b : EReal) (s : Fin n → EReal) : EReal := (Finset.univ : Finset (Fin n)).fold max b s

/-- A score shifted by the row's maximum and exponentiated. -/
def rowExp {n : ℕ} (b : EReal) (s : Fin n → EReal) (k : Fin n) : EReal := Ideal.exp (s k - rowMax b s)

/-- The softmax weight of position k in the row. -/
def rowSoft {n : ℕ} (b : EReal) (s : Fin n → EReal) (k : Fin n) : EReal :=
  Ideal.div (rowExp b s k) (∑ k' : Fin n, rowExp b s k')

/-- Taking the maximum with the starting value once more changes nothing: the fold is already above it. -/
theorem max_rowMax {n : ℕ} (b : EReal) (s : Fin n → EReal) : max b (rowMax b s) = rowMax b s :=
  max_eq_right ((Finset.le_fold_max b).mpr (Or.inl le_rfl))

end Cert.RowSoft

end
-- ==== Proof.KI.Pay.lean ====
/-
  What the three bodies compute, read at an index on the extended reals.

  The two projection bodies are plain matrix products of the loaded blocks (a change of float format is the identity
  here). The attention body, on a tile of 512 queries of one head: the scores are the rows of the query block against
  the rows of the key block, times the scale; the weights are each row's softmax of them (the row's maximum folded
  from minus infinity, the shifted exponentials, divided by their row sum); the attended values are the weights
  times the value block. The blocks carry a leading unit axis that the body drops and puts back.
-/
import proofs.«114147_j40827959116479_2_alg».proof.Proof.Gen.KernelIdeal.Skeleton
import proofs.«114147_j40827959116479_2_alg».proof.Proof.LibPlainDot
import proofs.«114147_j40827959116479_2_alg».proof.Proof.LibTransDot
import proofs.«114147_j40827959116479_2_alg».proof.Proof.LibKeepdims
import proofs.«114147_j40827959116479_2_alg».proof.Proof.RowSoft
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open Cert.RowSoft
open scoped BigOperators

/-- Minus infinity, as the word both programs start a row maximum from. -/
abbrev ninf : EReal := Ideal.ofBits .f32 0xFF800000#32
/-- The scale of the scores, 1/8 as a word. -/
abbrev scale : EReal := Ideal.ofBits .f32 0x3E000000#32

/-! ## The two projections -/

theorem pay0_apply (x0 : Vec Ideal S256x1024 .bf16) (x1 : Vec Ideal S1024x3072 .bf16) (p : Fin 256) (q : Fin 3072) :
    k0_pay1 (F := Ideal) x0 x1 (ix2 p q) = ∑ k : Fin 1024, x0 (ix2 p k) * x1 (ix2 k q) := by
  unfold k0_pay1
  rw [shapeCast_self, shapeCast_self]
  refine (Ideal.matmul_constant_zero_apply (φ₁ := .bf16) (φ₂ := .bf16) (DotDims.plain 256 1024 3072) none x0 x1 (ix2 p q)).trans ?_
  exact Cert.PlainDot.contraction_eq x0 x1 p q

theorem pay2o_apply (x0 : Vec Ideal S256x1024 .bf16) (x1 : Vec Ideal S1024x1024 .bf16) (p : Fin 256) (q : Fin 1024) :
    k2_pay1 (F := Ideal) x0 x1 (ix2 p q) = ∑ k : Fin 1024, x0 (ix2 p k) * x1 (ix2 k q) := by
  unfold k2_pay1
  rw [shapeCast_self, shapeCast_self]
  refine (Ideal.matmul_constant_zero_apply (φ₁ := .bf16) (φ₂ := .bf16) (DotDims.plain 256 1024 1024) none x0 x1 (ix2 p q)).trans ?_
  exact Cert.PlainDot.contraction_eq x0 x1 p q

/-! ## The unit axis of an attention block -/

theorem cast_q (x : Vec Ideal S1x512x64 .bf16) (r : Fin 512) (d : Fin 64) :
    shapeCast S512x64 x shapeCasts_S1x512x64_S512x64 (ix2 r d) = x (ix3 (0 : Fin 1) r d) := by
  refine shapeCast_apply x shapeCasts_S1x512x64_S512x64 (ix2 r d) (ix3 (0 : Fin 1) r d) ?_
  rw [Shape.rowMajor_val_three, Shape.rowMajor_val_two]
  show ((0 : ℕ) * 512 + r.val) * 64 + d.val = r.val * 64 + d.val
  omega

theorem cast_kv (x : Vec Ideal S1x2048x64 .bf16) (k : Fin 2048) (d : Fin 64) :
    shapeCast S2048x64 x shapeCasts_S1x2048x64_S2048x64 (ix2 k d) = x (ix3 (0 : Fin 1) k d) := by
  refine shapeCast_apply x shapeCasts_S1x2048x64_S2048x64 (ix2 k d) (ix3 (0 : Fin 1) k d) ?_
  rw [Shape.rowMajor_val_three, Shape.rowMajor_val_two]
  show ((0 : ℕ) * 2048 + k.val) * 64 + d.val = k.val * 64 + d.val
  omega

theorem cast_w (w : FVec Ideal S512x2048 .f32) (z : Fin 1) (r : Fin 512) (k : Fin 2048) :
    shapeCast S1x512x2048 w shapeCasts_S512x2048_S1x512x2048 (ix3 z r k) = w (ix2 r k) := by
  refine shapeCast_apply w shapeCasts_S512x2048_S1x512x2048 (ix3 z r k) (ix2 r k) ?_
  rw [Shape.rowMajor_val_three, Shape.rowMajor_val_two]
  show r.val * 2048 + k.val = (z.val * 512 + r.val) * 2048 + k.val
  have := z.isLt; omega

theorem cast_o (o : FVec Ideal S512x64 .bf16) (z : Fin 1) (r : Fin 512) (d : Fin 64) :
    shapeCast S1x512x64 o shapeCasts_S512x64_S1x512x64 (ix3 z r d) = o (ix2 r d) := by
  refine shapeCast_apply o shapeCasts_S512x64_S1x512x64 (ix3 z r d) (ix2 r d) ?_
  rw [Shape.rowMajor_val_three, Shape.rowMajor_val_two]
  show r.val * 64 + d.val = (z.val * 512 + r.val) * 64 + d.val
  have := z.isLt; omega

/-! ## The attention tile -/

/-- The scaled scores of a tile: query rows against key rows, times the scale. -/
def scores (q2 : FVec Ideal S512x64 .bf16) (k2 : FVec Ideal S2048x64 .bf16) : FVec Ideal S512x2048 .f32 :=
  mulf (matmul dot_S512x64_S2048x64_S512x2048_1_1_0_0_n_n none q2 k2 (constant S512x2048 .f32 0x00000000#32))
    (broadcast S512x2048 (Scalar.ofBits (F := Ideal) .f32 0x3E000000#32))

theorem scores_apply (q2 : FVec Ideal S512x64 .bf16) (k2 : FVec Ideal S2048x64 .bf16) (r : Fin 512) (k : Fin 2048) :
    scores q2 k2 (ix2 r k) = (∑ d : Fin 64, q2 (ix2 r d) * k2 (ix2 k d)) * scale := by
  unfold scores
  show FloatOps.matmul (DotDims.transposedRhs 512 64 2048) none q2 k2 (constant S512x2048 .f32 0x00000000#32) (ix2 r k) * scale = _
  refine congrArg (· * scale) ?_
  refine (Ideal.matmul_constant_zero_apply (φ₁ := .bf16) (φ₂ := .bf16) (DotDims.transposedRhs 512 64 2048) none q2 k2 (ix2 r k)).trans ?_
  exact Cert.TransDot.contraction_eq q2 k2 r k

/-- Every row's maximum, spread back over the row. -/
def tileMax (sc : FVec Ideal S512x2048 .f32) : FVec Ideal S512x2048 .f32 :=
  broadcastTo S512x2048 (shapeCast S512x1 (multiReduction .maximumf [1] S512 sc 0xFF800000#32 reduces_S512x2048_S512 (.inl rfl) rfl)
    shapeCasts_S512_S512x1) broadcasts_S512x1_S512x2048

/-- The scores shifted by their row's maximum and exponentiated. -/
def tileExp (sc : FVec Ideal S512x2048 .f32) : FVec Ideal S512x2048 .f32 := exp (subf sc (tileMax sc))

/-- Every row's sum of exponentials, spread back over the row. -/
def tileSum (sc : FVec Ideal S512x2048 .f32) : FVec Ideal S512x2048 .f32 :=
  broadcastTo S512x2048 (shapeCast S512x1 (multiReduction .add [1] S512 (tileExp sc) 0x00000000#32 reduces_S512x2048_S512 (.inl rfl) rfl)
    shapeCasts_S512_S512x1) broadcasts_S512x1_S512x2048

/-- The softmax weights of every row of a tile of scores, as the body spells them. -/
def weights (sc : FVec Ideal S512x2048 .f32) : FVec Ideal S512x2048 .f32 := divf (tileExp sc) (tileSum sc)

theorem tileMax_apply (sc : FVec Ideal S512x2048 .f32) (r : Fin 512) (q : Fin 2048) :
    tileMax sc (ix2 r q) = rowMax ninf (fun k' : Fin 2048 => sc (ix2 r k')) := by
  unfold tileMax rowMax
  rw [Keepdims.broadcastTo_a1_ab_apply, Keepdims.shapeCast_a_a1_apply]
  refine (Ideal.multiReduction_maximumf_single sc 0xFF800000#32 reduces_S512x2048_S512 (.inl rfl) rfl (ix1 r)).trans ?_
  show (Finset.univ : Finset (Fin 2048)).fold max ninf (fun k' : Fin 2048 => sc (reduces_S512x2048_S512.lift (ix1 r) k')) = _
  exact congrArg (fun f : Fin 2048 → EReal => (Finset.univ : Finset (Fin 2048)).fold max ninf f)
    (funext fun k' => congrArg sc (Keepdims.lift_lane reduces_S512x2048_S512 r k'))

theorem tileExp_apply (sc : FVec Ideal S512x2048 .f32) (r : Fin 512) (k : Fin 2048) :
    tileExp sc (ix2 r k) = rowExp ninf (fun k' : Fin 2048 => sc (ix2 r k')) k := by
  unfold tileExp rowExp
  show Ideal.exp (sc (ix2 r k) - tileMax sc (ix2 r k)) = _
  rw [tileMax_apply]

theorem tileSum_apply (sc : FVec Ideal S512x2048 .f32) (r : Fin 512) (q : Fin 2048) :
    tileSum sc (ix2 r q) = ∑ k' : Fin 2048, rowExp ninf (fun k'' : Fin 2048 => sc (ix2 r k'')) k' := by
  unfold tileSum
  rw [Keepdims.broadcastTo_a1_ab_apply, Keepdims.shapeCast_a_a1_apply]
  refine (Keepdims.laneSum_apply (tileExp sc) reduces_S512x2048_S512 (.inl rfl) rfl r).trans ?_
  exact Finset.sum_congr rfl fun k' _ => tileExp_apply sc r k'

theorem weights_apply (sc : FVec Ideal S512x2048 .f32) (r : Fin 512) (k : Fin 2048) :
    weights sc (ix2 r k) = rowSoft ninf (fun k' : Fin 2048 => sc (ix2 r k')) k := by
  unfold weights rowSoft
  show Ideal.div (tileExp sc (ix2 r k)) (tileSum sc (ix2 r k)) = _
  rw [tileExp_apply, tileSum_apply]

/-- The scores of query row r of a tile, from the blocks as loaded (leading unit axis kept). -/
def blockScores (x0 : Vec Ideal S1x512x64 .bf16) (x2 : Vec Ideal S1x2048x64 .bf16) (r : Fin 512) (k : Fin 2048) : EReal :=
  (∑ d : Fin 64, x0 (ix3 (0 : Fin 1) r d) * x2 (ix3 (0 : Fin 1) k d)) * scale

theorem pay1_eq (x0 : Vec Ideal S1x512x64 .bf16) (x2 : Vec Ideal S1x2048x64 .bf16) :
    k1_pay1 (F := Ideal) x0 x2 = weights (scores (shapeCast S512x64 x0 shapeCasts_S1x512x64_S512x64) (shapeCast S2048x64 x2 shapeCasts_S1x2048x64_S2048x64)) := rfl

theorem pay1_apply (x0 : Vec Ideal S1x512x64 .bf16) (x2 : Vec Ideal S1x2048x64 .bf16) (r : Fin 512) (k : Fin 2048) :
    k1_pay1 (F := Ideal) x0 x2 (ix2 r k) = rowSoft ninf (blockScores x0 x2 r) k := by
  rw [pay1_eq, weights_apply]
  refine congrArg (fun s => rowSoft ninf s k) (funext fun k' => ?_)
  rw [scores_apply]
  unfold blockScores
  refine congrArg (· * scale) (Finset.sum_congr rfl fun d _ => ?_)
  rw [cast_q, cast_kv]

/-- The weights block as stored: the tile's weights under a leading unit axis. -/
theorem pay2_apply (x0 : Vec Ideal S1x512x64 .bf16) (x2 : Vec Ideal S1x2048x64 .bf16) (z : Fin 1) (r : Fin 512) (k : Fin 2048) :
    k1_pay2 (F := Ideal) x0 x2 (ix3 z r k) = rowSoft ninf (blockScores x0 x2 r) k := by
  unfold k1_pay2
  rw [cast_w, pay1_apply]

/-- The attended-values block as stored: the weights times the value block, under a leading unit axis. -/
theorem pay3_apply (x0 : Vec Ideal S1x512x64 .bf16) (x2 : Vec Ideal S1x2048x64 .bf16) (x4 : Vec Ideal S1x2048x64 .bf16)
    (z : Fin 1) (r : Fin 512) (d : Fin 64) :
    k1_pay3 (F := Ideal) x0 x2 x4 (ix3 z r d) = ∑ k : Fin 2048, rowSoft ninf (blockScores x0 x2 r) k * x4 (ix3 (0 : Fin 1) k d) := by
  unfold k1_pay3
  rw [cast_o]
  refine (Ideal.matmul_constant_zero_apply (φ₁ := .bf16) (φ₂ := .bf16) (DotDims.plain 512 2048 64) none
    (truncf .bf16 (k1_pay1 (F := Ideal) x0 x2) bitsLt_bf16_f32)
    (shapeCast S2048x64 x4 shapeCasts_S1x2048x64_S2048x64) (ix2 r d)).trans ?_
  refine (Cert.PlainDot.contraction_eq (truncf .bf16 (k1_pay1 (F := Ideal) x0 x2) bitsLt_bf16_f32)
    (shapeCast S2048x64 x4 shapeCasts_S1x2048x64_S2048x64) r d).trans ?_
  refine Finset.sum_congr rfl fun k _ => ?_
  rw [truncf_apply, pay1_apply, cast_kv]

end Cert.KernelIdeal.Pay

end
-- ==== Proof.KI.Cover0.lean ====
/-
  Region 0's output array after the region, as one function of the two arrays it reads.

  Grid point t takes rows 256·t … 256·t+255 of the left array and the whole right array, and writes back the same rows
  of the output; every row of the output lies in exactly one such block, so the array ends as the product, entry by
  entry: at (i, j) the sum over k of left (i, k) · right (k, j).
-/
import proofs.«114147_j40827959116479_2_alg».proof.Proof.KI.Data
import proofs.«114147_j40827959116479_2_alg».proof.Proof.KI.Pay
import Idealize.ShloMosaic.Lib.Pipeline.Value

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)
open scoped BigOperators

theorem hz2 : (![0, 0] : Fin 2 → Nat) = fun _ => 0 := funext fun a => by fin_cases a <;> rfl

/-- The product of a 4096×1024 array by a 1024×N array, entry by entry. -/
def prodA {N : ℕ} (A : (⟨2, ![4096, 1024]⟩ : Shape).Idx → EReal) (Bm : (⟨2, ![1024, N]⟩ : Shape).Idx → EReal) :
    (⟨2, ![4096, N]⟩ : Shape).Idx → EReal :=
  fun i => ∑ k : Fin 1024, A (ix2 (⟨(i 0).val, idx2_lt0 i⟩ : Fin 4096) k) * Bm (ix2 k (⟨(i 1).val, idx2_lt1 i⟩ : Fin N))

theorem prodA_apply {N : ℕ} (A : (⟨2, ![4096, 1024]⟩ : Shape).Idx → EReal) (Bm : (⟨2, ![1024, N]⟩ : Shape).Idx → EReal)
    (p : Fin 4096) (q : Fin N) : prodA A Bm (ix2 p q) = ∑ k : Fin 1024, A (ix2 p k) * Bm (ix2 k q) := rfl

variable (V : (c : Dev nD) → (b : Ref sig .tc) → Buf (Elt Ideal) ((c : Thread nD τ).loc b))

/-- The windows' block indices at point t: the left and the output blocks are at row block t, the right one is whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt16_0 (t : Fin cfg0.N) : t.val < 16 := by
  have h := t.isLt; have h16 : cfg0.N = 16 := N_0; omega

/-- The left block at point t, row p, column k is the left array at row 256·t + p. -/
theorem read0_0 (c : Dev nD) (t : Fin cfg0.N) (p : Fin 256) (k : Fin 1024) :
    blk0 V c 0 t (ix2 p k) = V c main_v1 (ix2 (⟨256 * t.val + p.val, by have := lt16_0 t; have := p.isLt; omega⟩ : Fin 4096) k) := by
  obtain ⟨e0, e1, -⟩ := idx0 t
  show V c main_v1 (((cfg0.win 0).blk t).view.emb (ix2 p k)) = _
  refine congrArg (V c main_v1) (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- The right block at any point is the right array. -/
theorem read0_1 (c : Dev nD) (t : Fin cfg0.N) (k : Fin 1024) (q : Fin 3072) :
    blk0 V c 1 t (ix2 k q) = V c main_v4 (ix2 k q) := by
  obtain ⟨-, -, e2, e3, -⟩ := idx0 t
  show V c main_v4 (((cfg0.win 1).blk t).view.emb (ix2 k q)) = _
  refine congrArg (V c main_v4) (funext fun a => Fin.ext ?_)
  match a with
  | ⟨0, _⟩ => show win0_1.index t (0 : Fin 2) * 1024 + 1 * k.val = k.val; omega
  | ⟨1, _⟩ => show win0_1.index t (1 : Fin 2) * 3072 + 1 * q.val = q.val; omega

/-- What point t writes back is block t of the product. -/
theorem flushed0 (c : Dev nD) (t : Fin cfg0.N) :
    (dat0 V c).flushed 2 t = ((cfg0.win 2).blk t).view.read (Elt Ideal) (prodA (V c main_v1) (V c main_v4)) := by
  show (cfg0.win 2).cut (grid0.coords t) ((dat0 V c).after 2 t) = _
  rw [after0_2]
  unfold out0_2
  rw [View.canon_unit_zero hz2]
  simp only [View.ld_unit_zero (S := S256x1024) hz2, View.ld_unit_zero (S := S1024x3072) hz2]
  obtain ⟨-, -, -, -, e4, e5⟩ := idx0 t
  funext j
  obtain ⟨p, q, rfl⟩ : ∃ (p : Fin 256) (q : Fin 3072), j = ix2 p q := ⟨j 0, j 1, eq_ix2 j⟩
  show k0_pay1 (F := Ideal) (blk0 V c 0 t) (blk0 V c 1 t) (ix2 p q)
    = prodA (V c main_v1) (V c main_v4) (((cfg0.win 2).blk t).view.emb (ix2 p q))
  have hemb : ((cfg0.win 2).blk t).view.emb (ix2 p q)
      = ix2 (⟨256 * t.val + p.val, by have := lt16_0 t; have := p.isLt; omega⟩ : Fin 4096) q := by
    funext a; apply Fin.ext
    match a with
    | ⟨0, _⟩ => show win0_2.index t (0 : Fin 2) * 256 + 1 * p.val = 256 * t.val + p.val; omega
    | ⟨1, _⟩ => show win0_2.index t (1 : Fin 2) * 3072 + 1 * q.val = q.val; omega
  rw [hemb, prodA_apply, Pay.pay0_apply]
  refine Finset.sum_congr rfl fun k _ => ?_
  rw [read0_0, read0_1]

theorem mem_blk0 (t : Fin cfg0.N) (i : S4096x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v5).slice (win0_2.rect t)).set ↔ _
  rw [View.set_slice_whole, Rect.mem_set_unit]
  exact Iff.rfl

/-- Every entry of the output lies in the block of the point its row belongs to. -/
theorem cover0 (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  have h16 : cfg0.N = 16 := N_0
  refine ⟨⟨(i 0).val / 256, by omega⟩, flush0_2 _, ?_⟩
  rw [mem_blk0]
  obtain ⟨-, -, -, -, e4, e5⟩ := idx0 ⟨(i 0).val / 256, by omega⟩
  intro a
  match a with
  | ⟨0, _⟩ =>
    show win0_2.index ⟨(i 0).val / 256, _⟩ (0 : Fin 2) * 256 ≤ (i 0).val ∧ (i 0).val < win0_2.index ⟨(i 0).val / 256, _⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, _⟩ (1 : Fin 2) * 3072 ≤ (i 1).val ∧ (i 1).val < win0_2.index ⟨(i 0).val / 256, _⟩ (1 : Fin 2) * 3072 + 3072
    rw [e5]; omega

/-- The output array after region 0 is the product of the two arrays the region reads. -/
theorem final0 (c : Dev nD) : (dat0 V c).arrAt 2 cfg0.N = prodA (V c main_v1) (V c main_v4) :=
  (dat0 V c).arrAt_eq_of_cover 2 _ (fun t _ => flushed0 V c t) cover0

end Cert.KernelIdeal.Val

end
-- ==== Proof.KI.Cover1.lean ====
/-
  Region 1's two output arrays after the region, as functions of the three arrays it reads (queries, keys, values,
  each [32 heads, 2048 positions, 64]).

  Grid point t works on head t / 4 and the query tile t % 4 (rows 512·(t % 4) … +511): it takes that tile of the
  queries and all keys and values of the head, and writes back the same tile of both outputs. Every entry of an output
  lies in exactly one such block. The weights array ends, at (head, q, k), as the softmax over k of the scaled scores
  of query q against the head's keys; the attended array, at (head, q, d), as the sum over k of weight (q, k) times
  value (k, d).
-/
import proofs.«114147_j40827959116479_2_alg».proof.Proof.KI.Data
import proofs.«114147_j40827959116479_2_alg».proof.Proof.KI.Pay
import Idealize.ShloMosaic.Lib.Pipeline.Value

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)
open Cert.RowSoft
open scoped BigOperators

theorem hz3 : (![0, 0, 0] : Fin 3 → Nat) = fun _ => 0 := funext fun a => by fin_cases a <;> rfl

/-- The scaled scores of one head: query row q against key row k. -/
def headScores (Q K : (⟨3, ![32, 2048, 64]⟩ : Shape).Idx → EReal) (bh : Fin 32) (q : Fin 2048) (k : Fin 2048) : EReal :=
  (∑ d : Fin 64, Q (ix3 bh q d) * K (ix3 bh k d)) * Pay.scale

/-- The attention weights of every head: each query row's softmax of its scores. -/
def attnW (Q K : (⟨3, ![32, 2048, 64]⟩ : Shape).Idx → EReal) : (⟨3, ![32, 2048, 2048]⟩ : Shape).Idx → EReal :=
  fun i => rowSoft Pay.ninf (headScores Q K (⟨(i 0).val, (i 0).isLt⟩ : Fin 32) (⟨(i 1).val, (i 1).isLt⟩ : Fin 2048))
    (⟨(i 2).val, (i 2).isLt⟩ : Fin 2048)

/-- The attended values of every head: the weights times the head's values. -/
def attnO (Q K Vv : (⟨3, ![32, 2048, 64]⟩ : Shape).Idx → EReal) : (⟨3, ![32, 2048, 64]⟩ : Shape).Idx → EReal :=
  fun i => ∑ k : Fin 2048, rowSoft Pay.ninf (headScores Q K (⟨(i 0).val, (i 0).isLt⟩ : Fin 32) (⟨(i 1).val, (i 1).isLt⟩ : Fin 2048)) k
    * Vv (ix3 (⟨(i 0).val, (i 0).isLt⟩ : Fin 32) k (⟨(i 2).val, (i 2).isLt⟩ : Fin 64))

theorem attnW_apply (Q K : (⟨3, ![32, 2048, 64]⟩ : Shape).Idx → EReal) (bh : Fin 32) (q k : Fin 2048) :
    attnW Q K (ix3 bh q k) = rowSoft Pay.ninf (headScores Q K bh q) k := rfl

theorem attnO_apply (Q K Vv : (⟨3, ![32, 2048, 64]⟩ : Shape).Idx → EReal) (bh : Fin 32) (q : Fin 2048) (d : Fin 64) :
    attnO Q K Vv (ix3 bh q d) = ∑ k : Fin 2048, rowSoft Pay.ninf (headScores Q K bh q) k * Vv (ix3 bh k d) := rfl

variable (V : (c : Dev nD) → (b : Ref sig .tc) → Buf (Elt Ideal) ((c : Thread nD τ).loc b))

/-- The windows' block indices at point t: head t / 4 everywhere; the query tile t % 4 for the query window and both
    outputs, the whole head for keys and values. -/
theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0
    ∧ win1_4.index t (0 : Fin 3) = t.val / 4 ∧ win1_4.index t (1 : Fin 3) = t.val % 4 ∧ win1_4.index t (2 : Fin 3) = 0 :=
  (by decide +kernel : ∀ t : Fin grid1.N, _)

theorem lt128 (t : Fin cfg1.N) : t.val < 128 := by
  have h := t.isLt; have h128 : cfg1.N = 128 := N_1; omega

/-- The head of point t and the row of the arrays under row r of its query tile. -/
abbrev headOf (t : Fin cfg1.N) : Fin 32 := ⟨t.val / 4, by have := lt128 t; omega⟩
abbrev rowOf (t : Fin cfg1.N) (r : Fin 512) : Fin 2048 := ⟨512 * (t.val % 4) + r.val, by have := r.isLt; omega⟩

theorem read1_0 (c : Dev nD) (t : Fin cfg1.N) (r : Fin 512) (d : Fin 64) :
    blk1 V c 0 t (ix3 (0 : Fin 1) r d) = V c main_v11 (ix3 (headOf t) (rowOf t r) d) := by
  obtain ⟨e0, e1, e2, -⟩ := idx1 t
  show V c main_v11 (((cfg1.win 0).blk t).view.emb (ix3 (0 : Fin 1) r d)) = _
  refine congrArg (V c main_v11) (funext fun a => Fin.ext ?_)
  match a with
  | ⟨0, _⟩ => show win1_0.index t (0 : Fin 3) * 1 + 1 * (0 : ℕ) = t.val / 4; omega
  | ⟨1, _⟩ => show win1_0.index t (1 : Fin 3) * 512 + 1 * r.val = 512 * (t.val % 4) + r.val; omega
  | ⟨2, _⟩ => show win1_0.index t (2 : Fin 3) * 64 + 1 * d.val = d.val; omega

theorem read1_1 (c : Dev nD) (t : Fin cfg1.N) (k : Fin 2048) (d : Fin 64) :
    blk1 V c 1 t (ix3 (0 : Fin 1) k d) = V c main_v14 (ix3 (headOf t) k d) := by
  obtain ⟨-, -, -, e0, e1, e2, -⟩ := idx1 t
  show V c main_v14 (((cfg1.win 1).blk t).view.emb (ix3 (0 : Fin 1) k d)) = _
  refine congrArg (V c main_v14) (funext fun a => Fin.ext ?_)
  match a with
  | ⟨0, _⟩ => show win1_1.index t (0 : Fin 3) * 1 + 1 * (0 : ℕ) = t.val / 4; omega
  | ⟨1, _⟩ => show win1_1.index t (1 : Fin 3) * 2048 + 1 * k.val = k.val; omega
  | ⟨2, _⟩ => show win1_1.index t (2 : Fin 3) * 64 + 1 * d.val = d.val; omega

theorem read1_2 (c : Dev nD) (t : Fin cfg1.N) (k : Fin 2048) (d : Fin 64) :
    blk1 V c 2 t (ix3 (0 : Fin 1) k d) = V c main_v17 (ix3 (headOf t) k d) := by
  obtain ⟨-, -, -, -, -, -, e0, e1, e2, -⟩ := idx1 t
  show V c main_v17 (((cfg1.win 2).blk t).view.emb (ix3 (0 : Fin 1) k d)) = _
  refine congrArg (V c main_v17) (funext fun a => Fin.ext ?_)
  match a with
  | ⟨0, _⟩ => show win1_2.index t (0 : Fin 3) * 1 + 1 * (0 : ℕ) = t.val / 4; omega
  | ⟨1, _⟩ => show win1_2.index t (1 : Fin 3) * 2048 + 1 * k.val = k.val; omega
  | ⟨2, _⟩ => show win1_2.index t (2 : Fin 3) * 64 + 1 * d.val = d.val; omega

/-- The scores the body forms from its blocks at point t, row r, are the head's scores at the row under r. -/
theorem blockScores_eq (c : Dev nD) (t : Fin cfg1.N) (r : Fin 512) :
    Pay.blockScores (blk1 V c 0 t) (blk1 V c 1 t) r = headScores (V c main_v11) (V c main_v14) (headOf t) (rowOf t r) := by
  funext k'
  unfold Pay.blockScores headScores
  refine congrArg (· * Pay.scale) (Finset.sum_congr rfl fun d _ => ?_)
  rw [read1_0, read1_1]

/-- What point t writes back to the weights array is block t of the weights. -/
theorem flushed1_4 (c : Dev nD) (t : Fin cfg1.N) :
    (dat1 V c).flushed 4 t = ((cfg1.win 4).blk t).view.read (Elt Ideal) (attnW (V c main_v11) (V c main_v14)) := by
  show (cfg1.win 4).cut (grid1.coords t) ((dat1 V c).after 4 t) = _
  rw [after1_4]
  unfold out1_4
  rw [View.canon_unit_zero hz3]
  simp only [View.ld_unit_zero (S := S1x512x64) hz3, View.ld_unit_zero (S := S1x2048x64) hz3]
  obtain ⟨-, -, -, -, -, -, -, -, -, -, -, -, e0, e1, e2⟩ := idx1 t
  funext j
  obtain ⟨z, r, k, rfl⟩ : ∃ (z : Fin 1) (r : Fin 512) (k : Fin 2048), j = ix3 z r k := ⟨j 0, j 1, j 2, eq_ix3 j⟩
  show k1_pay2 (F := Ideal) (blk1 V c 0 t) (blk1 V c 1 t) (ix3 z r k)
    = attnW (V c main_v11) (V c main_v14) (((cfg1.win 4).blk t).view.emb (ix3 z r k))
  have hemb : ((cfg1.win 4).blk t).view.emb (ix3 z r k) = ix3 (headOf t) (rowOf t r) k := by
    funext a; apply Fin.ext
    match a with
    | ⟨0, _⟩ => show win1_4.index t (0 : Fin 3) * 1 + 1 * z.val = t.val / 4; have := z.isLt; omega
    | ⟨1, _⟩ => show win1_4.index t (1 : Fin 3) * 512 + 1 * r.val = 512 * (t.val % 4) + r.val; omega
    | ⟨2, _⟩ => show win1_4.index t (2 : Fin 3) * 2048 + 1 * k.val = k.val; omega
  rw [hemb, attnW_apply, Pay.pay2_apply, blockScores_eq]

/-- What point t writes back to the attended array is block t of the attended values. -/
theorem flushed1_3 (c : Dev nD) (t : Fin cfg1.N) :
    (dat1 V c).flushed 3 t = ((cfg1.win 3).blk t).view.read (Elt Ideal) (attnO (V c main_v11) (V c main_v14) (V c main_v17)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x2048x64) hz3]
  obtain ⟨-, -, -, -, -, -, -, -, -, e0, e1, e2, -⟩ := idx1 t
  funext j
  obtain ⟨z, r, d, rfl⟩ : ∃ (z : Fin 1) (r : Fin 512) (d : Fin 64), j = ix3 z r d := ⟨j 0, j 1, j 2, eq_ix3 j⟩
  show k1_pay3 (F := Ideal) (blk1 V c 0 t) (blk1 V c 1 t) (blk1 V c 2 t) (ix3 z r d)
    = attnO (V c main_v11) (V c main_v14) (V c main_v17) (((cfg1.win 3).blk t).view.emb (ix3 z r d))
  have hemb : ((cfg1.win 3).blk t).view.emb (ix3 z r d) = ix3 (headOf t) (rowOf t r) d := by
    funext a; apply Fin.ext
    match a with
    | ⟨0, _⟩ => show win1_3.index t (0 : Fin 3) * 1 + 1 * z.val = t.val / 4; have := z.isLt; omega
    | ⟨1, _⟩ => show win1_3.index t (1 : Fin 3) * 512 + 1 * r.val = 512 * (t.val % 4) + r.val; omega
    | ⟨2, _⟩ => show win1_3.index t (2 : Fin 3) * 64 + 1 * d.val = d.val; omega
  rw [hemb, attnO_apply, Pay.pay3_apply, blockScores_eq]
  refine Finset.sum_congr rfl fun k _ => ?_
  rw [read1_2]

theorem mem_blk1_4 (t : Fin cfg1.N) (i : S32x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v18_1).slice (win1_4.rect t)).set ↔ _
  rw [View.set_slice_whole, Rect.mem_set_unit]
  exact Iff.rfl

theorem mem_blk1_3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v18_0).slice (win1_3.rect t)).set ↔ _
  rw [View.set_slice_whole, Rect.mem_set_unit]
  exact Iff.rfl

/-- Every entry of the weights array lies in the block of its head and its row's tile. -/
theorem cover1_4 (i : S32x2048x2048.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 2048 := (i 2).isLt
  have h128 : cfg1.N = 128 := N_1
  refine ⟨⟨(i 0).val * 4 + (i 1).val / 512, by omega⟩, flush1_4 _, ?_⟩
  rw [mem_blk1_4]
  obtain ⟨-, -, -, -, -, -, -, -, -, -, -, -, e0, e1, e2⟩ := idx1 ⟨(i 0).val * 4 + (i 1).val / 512, by omega⟩
  intro a
  match a with
  | ⟨0, _⟩ =>
    show win1_4.index ⟨(i 0).val * 4 + (i 1).val / 512, _⟩ (0 : Fin 3) * 1 ≤ (i 0).val ∧ (i 0).val < win1_4.index ⟨(i 0).val * 4 + (i 1).val / 512, _⟩ (0 : Fin 3) * 1 + 1
    rw [e0]; show ((i 0).val * 4 + (i 1).val / 512) / 4 * 1 ≤ (i 0).val ∧ (i 0).val < ((i 0).val * 4 + (i 1).val / 512) / 4 * 1 + 1; omega
  | ⟨1, _⟩ =>
    show win1_4.index ⟨(i 0).val * 4 + (i 1).val / 512, _⟩ (1 : Fin 3) * 512 ≤ (i 1).val ∧ (i 1).val < win1_4.index ⟨(i 0).val * 4 + (i 1).val / 512, _⟩ (1 : Fin 3) * 512 + 512
    rw [e1]; show ((i 0).val * 4 + (i 1).val / 512) % 4 * 512 ≤ (i 1).val ∧ (i 1).val < ((i 0).val * 4 + (i 1).val / 512) % 4 * 512 + 512; omega
  | ⟨2, _⟩ =>
    show win1_4.index ⟨(i 0).val * 4 + (i 1).val / 512, _⟩ (2 : Fin 3) * 2048 ≤ (i 2).val ∧ (i 2).val < win1_4.index ⟨(i 0).val * 4 + (i 1).val / 512, _⟩ (2 : Fin 3) * 2048 + 2048
    rw [e2]; omega

theorem cover1_3 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have h128 : cfg1.N = 128 := N_1
  refine ⟨⟨(i 0).val * 4 + (i 1).val / 512, by omega⟩, flush1_3 _, ?_⟩
  rw [mem_blk1_3]
  obtain ⟨-, -, -, -, -, -, -, -, -, e0, e1, e2, -⟩ := idx1 ⟨(i 0).val * 4 + (i 1).val / 512, by omega⟩
  intro a
  match a with
  | ⟨0, _⟩ =>
    show win1_3.index ⟨(i 0).val * 4 + (i 1).val / 512, _⟩ (0 : Fin 3) * 1 ≤ (i 0).val ∧ (i 0).val < win1_3.index ⟨(i 0).val * 4 + (i 1).val / 512, _⟩ (0 : Fin 3) * 1 + 1
    rw [e0]; show ((i 0).val * 4 + (i 1).val / 512) / 4 * 1 ≤ (i 0).val ∧ (i 0).val < ((i 0).val * 4 + (i 1).val / 512) / 4 * 1 + 1; omega
  | ⟨1, _⟩ =>
    show win1_3.index ⟨(i 0).val * 4 + (i 1).val / 512, _⟩ (1 : Fin 3) * 512 ≤ (i 1).val ∧ (i 1).val < win1_3.index ⟨(i 0).val * 4 + (i 1).val / 512, _⟩ (1 : Fin 3) * 512 + 512
    rw [e1]; show ((i 0).val * 4 + (i 1).val / 512) % 4 * 512 ≤ (i 1).val ∧ (i 1).val < ((i 0).val * 4 + (i 1).val / 512) % 4 * 512 + 512; omega
  | ⟨2, _⟩ =>
    show win1_3.index ⟨(i 0).val * 4 + (i 1).val / 512, _⟩ (2 : Fin 3) * 64 ≤ (i 2).val ∧ (i 2).val < win1_3.index ⟨(i 0).val * 4 + (i 1).val / 512, _⟩ (2 : Fin 3) * 64 + 64
    rw [e2]; omega

/-- The weights array after region 1. -/
theorem final1_4 (c : Dev nD) : (dat1 V c).arrAt 4 cfg1.N = attnW (V c main_v11) (V c main_v14) :=
  (dat1 V c).arrAt_eq_of_cover 4 _ (fun t _ => flushed1_4 V c t) cover1_4

/-- The attended-values array after region 1. -/
theorem final1_3 (c : Dev nD) : (dat1 V c).arrAt 3 cfg1.N = attnO (V c main_v11) (V c main_v14) (V c main_v17) :=
  (dat1 V c).arrAt_eq_of_cover 3 _ (fun t _ => flushed1_3 V c t) cover1_3

end Cert.KernelIdeal.Val

end
-- ==== Proof.KI.Cover2.lean ====
/-
  Region 2's output array after the region: the product of the two arrays it reads, entry by entry. Grid point t
  takes rows 256·t … 256·t+255 of the left array and the whole right array, and writes back the same rows.
-/
import proofs.«114147_j40827959116479_2_alg».proof.Proof.KI.Cover0

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt16_2 (t : Fin cfg2.N) : t.val < 16 := by
  have h := t.isLt; have h16 : cfg2.N = 16 := N_2; omega

theorem read2_0 (c : Dev nD) (t : Fin cfg2.N) (p : Fin 256) (k : Fin 1024) :
    blk2 V c 0 t (ix2 p k) = V c main_v21 (ix2 (⟨256 * t.val + p.val, by have := lt16_2 t; have := p.isLt; omega⟩ : Fin 4096) k) := by
  obtain ⟨e0, e1, -⟩ := idx2 t
  show V c main_v21 (((cfg2.win 0).blk t).view.emb (ix2 p k)) = _
  refine congrArg (V c main_v21) (funext fun a => Fin.ext ?_)
  match a with
  | ⟨0, _⟩ => show win2_0.index t (0 : Fin 2) * 256 + 1 * p.val = 256 * t.val + p.val; omega
  | ⟨1, _⟩ => show win2_0.index t (1 : Fin 2) * 1024 + 1 * k.val = k.val; omega

theorem read2_1 (c : Dev nD) (t : Fin cfg2.N) (k : Fin 1024) (q : Fin 1024) :
    blk2 V c 1 t (ix2 k q) = V c main_v24 (ix2 k q) := by
  obtain ⟨-, -, e2, e3, -⟩ := idx2 t
  show V c main_v24 (((cfg2.win 1).blk t).view.emb (ix2 k q)) = _
  refine congrArg (V c main_v24) (funext fun a => Fin.ext ?_)
  match a with
  | ⟨0, _⟩ => show win2_1.index t (0 : Fin 2) * 1024 + 1 * k.val = k.val; omega
  | ⟨1, _⟩ => show win2_1.index t (1 : Fin 2) * 1024 + 1 * q.val = q.val; omega

theorem flushed2 (c : Dev nD) (t : Fin cfg2.N) :
    (dat2 V c).flushed 2 t = ((cfg2.win 2).blk t).view.read (Elt Ideal) (prodA (V c main_v21) (V c main_v24)) := by
  show (cfg2.win 2).cut (grid2.coords t) ((dat2 V c).after 2 t) = _
  rw [after2_2]
  unfold out2_2
  rw [View.canon_unit_zero hz2]
  simp only [View.ld_unit_zero (S := S256x1024) hz2, View.ld_unit_zero (S := S1024x1024) hz2]
  obtain ⟨-, -, -, -, e4, e5⟩ := idx2 t
  funext j
  obtain ⟨p, q, rfl⟩ : ∃ (p : Fin 256) (q : Fin 1024), j = ix2 p q := ⟨j 0, j 1, eq_ix2 j⟩
  show k2_pay1 (F := Ideal) (blk2 V c 0 t) (blk2 V c 1 t) (ix2 p q)
    = prodA (V c main_v21) (V c main_v24) (((cfg2.win 2).blk t).view.emb (ix2 p q))
  have hemb : ((cfg2.win 2).blk t).view.emb (ix2 p q)
      = ix2 (⟨256 * t.val + p.val, by have := lt16_2 t; have := p.isLt; omega⟩ : Fin 4096) q := by
    funext a; apply Fin.ext
    match a with
    | ⟨0, _⟩ => show win2_2.index t (0 : Fin 2) * 256 + 1 * p.val = 256 * t.val + p.val; omega
    | ⟨1, _⟩ => show win2_2.index t (1 : Fin 2) * 1024 + 1 * q.val = q.val; omega
  rw [hemb, prodA_apply, Pay.pay2o_apply]
  refine Finset.sum_congr rfl fun k _ => ?_
  rw [read2_0, read2_1]

theorem mem_blk2 (t : Fin cfg2.N) (i : S4096x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v25).slice (win2_2.rect t)).set ↔ _
  rw [View.set_slice_whole, Rect.mem_set_unit]
  exact Iff.rfl

theorem cover2 (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have h16 : cfg2.N = 16 := N_2
  refine ⟨⟨(i 0).val / 256, by omega⟩, flush2_2 _, ?_⟩
  rw [mem_blk2]
  obtain ⟨-, -, -, -, e4, e5⟩ := idx2 ⟨(i 0).val / 256, by omega⟩
  intro a
  match a with
  | ⟨0, _⟩ =>
    show win2_2.index ⟨(i 0).val / 256, _⟩ (0 : Fin 2) * 256 ≤ (i 0).val ∧ (i 0).val < win2_2.index ⟨(i 0).val / 256, _⟩ (0 : Fin 2) * 256 + 256
    rw [e4]; show (i 0).val / 256 * 256 ≤ (i 0).val ∧ (i 0).val < (i 0).val / 256 * 256 + 256; omega
  | ⟨1, _⟩ =>
    show win2_2.index ⟨(i 0).val / 256, _⟩ (1 : Fin 2) * 1024 ≤ (i 1).val ∧ (i 1).val < win2_2.index ⟨(i 0).val / 256, _⟩ (1 : Fin 2) * 1024 + 1024
    rw [e5]; omega

/-- The output array after region 2 is the product of the two arrays the region reads. -/
theorem final2 (c : Dev nD) : (dat2 V c).arrAt 2 cfg2.N = prodA (V c main_v21) (V c main_v24) :=
  (dat2 V c).arrAt_eq_of_cover 2 _ (fun t _ => flushed2 V c t) cover2

end Cert.KernelIdeal.Val

end
-- ==== Proof.LibNary3.lean ====
/-
  A host operation with three operands, read at its result.

  The result of an operation over a literal family of three buffers is its function applied to the three buffers'
  contents, each named at its own buffer (rather than as a function of the position in the family), so that what
  each of the three held can be rewritten further, one operation at a time.
-/
import Idealize.ShloMosaic.Lib.StableHlo.Run

noncomputable section

namespace Idealize.ShloMosaic.StableHlo

variable {τ : Topo} {sig : RefSig} {Val : EltTy → Type}
variable {x a b y : Ref sig .tc}

/-- A three-operand operation's result, the operands' contents each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a straight line of host operations, three-operand operations included: each
    operation's result at its own buffer is its function's value, at any other buffer what was there. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.KI.Host.lean ====
/-
  The buffers the three regions read and the two the main function returns, each as the host operations' term of
  what the step before left, on the extended reals.

  Before region 0: the input flattened to [4096, 1024]; the three weight matrices stacked along the rows and
  transposed to [1024, 3072]. Region 0 leaves their product. Each third of its columns, re-laid [4096, 1024] →
  [2, 2048, 16, 64] → [2, 16, 2048, 64] → [32, 2048, 64], is region 1's queries, keys, values. Region 1 leaves the
  weights, returned re-laid [2, 16, 2048, 2048], and the attended values, which go back through the inverse re-laying
  to [4096, 1024]; region 2 multiplies them by the transposed output weights, and the product is returned re-laid
  [2, 2048, 1024]. A change of float format is the identity here.
-/
import proofs.«114147_j40827959116479_2_alg».proof.Proof.KI.Cover0
import proofs.«114147_j40827959116479_2_alg».proof.Proof.KI.Cover1
import proofs.«114147_j40827959116479_2_alg».proof.Proof.KI.Cover2
import proofs.«114147_j40827959116479_2_alg».proof.Proof.LibNary3
import Idealize.ShloMosaic.Lib.StableHlo.Run

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.StableHlo
open Idealize.ShloMosaic.ValueIdx
open scoped BigOperators

variable (m : (ℓ : Loc nD τ sig) → Buf (Elt Ideal) ℓ) (ρ : Dev nD → PrngReg)

/-- A [4096, 1024] array split into heads: [2, 2048, 16, 64], heads before positions, then batch and head merged. -/
def toHeads (y : FVec Ideal S4096x1024 .bf16) : FVec Ideal S32x2048x64 .bf16 :=
  shapeCast S32x2048x64 (transpose S2x16x2048x64 [0, 2, 1, 3] (shapeCast S2x2048x16x64 y shapeCasts_S4096x1024_S2x2048x16x64)
    transposes_S2x2048x16x64_S2x16x2048x64_0_2_1_3) shapeCasts_S2x16x2048x64_S32x2048x64

/-- The inverse re-laying: heads back beside the positions, then flattened to [4096, 1024]. -/
def fromHeads (y : FVec Ideal S32x2048x64 .bf16) : FVec Ideal S4096x1024 .bf16 :=
  shapeCast S4096x1024 (transpose S2x2048x16x64 [0, 2, 1, 3] (shapeCast S2x16x2048x64 y shapeCasts_S32x2048x64_S2x16x2048x64)
    transposes_S2x16x2048x64_S2x2048x16x64_0_2_1_3) shapeCasts_S2x2048x16x64_S4096x1024

/-! ## Before region 0 -/

theorem E1_v1 (c : Dev nD) : E1 m ρ c main_v1
    = (truncf (F := Ideal) .bf16 (shapeCast S4096x1024 (m ((c : Thread nD τ).loc main_arg0) : FVec Ideal S2x2048x1024 .f32) shapeCasts_S2x2048x1024_S4096x1024) bitsLt_bf16_f32 : FVec Ideal S4096x1024 .bf16) := by
  show StableHlo.after hostOps0 (B0 m ρ c) (Proc.devRef .tc main_v1) = _
  dsimp only [hostOps0]
  after_results3
  rfl

theorem E1_v4 (c : Dev nD) : E1 m ρ c main_v4
    = (truncf (F := Ideal) .bf16 (transpose S1024x3072 [1, 0] (concatenate (α := Ideal .f32) S3072x1024 0
        [⟨S1024x1024, (m ((c : Thread nD τ).loc main_arg1) : FVec Ideal S1024x1024 .f32)⟩, ⟨S1024x1024, (m ((c : Thread nD τ).loc main_arg2) : FVec Ideal S1024x1024 .f32)⟩, ⟨S1024x1024, (m ((c : Thread nD τ).loc main_arg3) : FVec Ideal S1024x1024 .f32)⟩]
        concatenates_S1024x1024_S1024x1024_S1024x1024_S3072x1024_d0) transposes_S3072x1024_S1024x3072_1_0) bitsLt_bf16_f32 : FVec Ideal S1024x3072 .bf16) := by
  show StableHlo.after hostOps0 (B0 m ρ c) (Proc.devRef .tc main_v4) = _
  dsimp only [hostOps0]
  after_results3
  rfl

/-! ## Region 0 and the stretch after it -/

theorem E2_v5 (c : Dev nD) : E2 m ρ c main_v5 = prodA (E1 m ρ c main_v1) (E1 m ρ c main_v4) :=
  (B2_arr m ρ c 2).trans (final0 (E1 m ρ) c)

theorem E3_v11 (c : Dev nD) : E3 m ρ c main_v11
    = toHeads (extractStridedSlice S4096x1024 ![0, 0] (E2 m ρ c main_v5) slices_S4096x3072_S4096x1024_0_0) := by
  show StableHlo.after hostOps1 (B2 m ρ c) (Proc.devRef .tc main_v11) = _
  dsimp only [hostOps1]
  after_results3
  rfl

theorem E3_v14 (c : Dev nD) : E3 m ρ c main_v14
    = toHeads (extractStridedSlice S4096x1024 ![0, 1024] (E2 m ρ c main_v5) slices_S4096x3072_S4096x1024_0_1024) := by
  show StableHlo.after hostOps1 (B2 m ρ c) (Proc.devRef .tc main_v14) = _
  dsimp only [hostOps1]
  after_results3
  rfl

theorem E3_v17 (c : Dev nD) : E3 m ρ c main_v17
    = toHeads (extractStridedSlice S4096x1024 ![0, 2048] (E2 m ρ c main_v5) slices_S4096x3072_S4096x1024_0_2048) := by
  show StableHlo.after hostOps1 (B2 m ρ c) (Proc.devRef .tc main_v17) = _
  dsimp only [hostOps1]
  after_results3
  rfl

/-! ## Region 1 and the stretch after it -/

theorem E4_v18_1 (c : Dev nD) : E4 m ρ c main_v18_1 = attnW (E3 m ρ c main_v11) (E3 m ρ c main_v14) :=
  (B4_arr m ρ c 4).trans (final1_4 (E3 m ρ) c)

theorem E4_v18_0 (c : Dev nD) : E4 m ρ c main_v18_0 = attnO (E3 m ρ c main_v11) (E3 m ρ c main_v14) (E3 m ρ c main_v17) :=
  (B4_arr m ρ c 3).trans (final1_3 (E3 m ρ) c)

/-- The output weights are still as launched when the third stretch reads them. -/
theorem E4_arg4 (c : Dev nD) : E4 m ρ c main_arg4 = m ((c : Thread nD τ).loc main_arg4) :=
  (B4_of_ne m ρ c main_arg4 (by decide)).trans <|
    (StableHlo.after_of_writes_sub hostOps1 _ hostOps1_writes (by decide)).trans <|
    (B2_of_ne m ρ c main_arg4 (by decide)).trans <|
    (StableHlo.after_of_writes_sub hostOps0 _ hostOps0_writes (by decide)).trans rfl

theorem E5_v22 (c : Dev nD) : E5 m ρ c main_v22
    = shapeCast S2x16x2048x2048 (E4 m ρ c main_v18_1) shapeCasts_S32x2048x2048_S2x16x2048x2048 := by
  show StableHlo.after hostOps2 (B4 m ρ c) (Proc.devRef .tc main_v22) = _
  dsimp only [hostOps2]
  after_results3
  rfl

theorem E5_v21 (c : Dev nD) : E5 m ρ c main_v21 = fromHeads (E4 m ρ c main_v18_0) := by
  show StableHlo.after hostOps2 (B4 m ρ c) (Proc.devRef .tc main_v21) = _
  dsimp only [hostOps2]
  after_results3
  rfl

theorem E5_v24 (c : Dev nD) : E5 m ρ c main_v24
    = (truncf (F := Ideal) .bf16 (transpose S1024x1024 [1, 0] (E4 m ρ c main_arg4 : FVec Ideal S1024x1024 .f32) transposes_S1024x1024_S1024x1024_1_0) bitsLt_bf16_f32 : FVec Ideal S1024x1024 .bf16) := by
  show StableHlo.after hostOps2 (B4 m ρ c) (Proc.devRef .tc main_v24) = _
  dsimp only [hostOps2]
  after_results3

/-! ## Region 2 and the last stretch -/

theorem E6_v25 (c : Dev nD) : E6 m ρ c main_v25 = prodA (E5 m ρ c main_v21) (E5 m ρ c main_v24) :=
  (B6_arr m ρ c 2).trans (final2 (E5 m ρ) c)

theorem B7_v26 (c : Dev nD) : B7 m ρ c (Proc.devRef .tc main_v26)
    = shapeCast S2x2048x1024 (E6 m ρ c main_v25) shapeCasts_S4096x1024_S2x2048x1024 := by
  show StableHlo.after hostOps3 (B6 m ρ c) (Proc.devRef .tc main_v26) = _
  dsimp only [hostOps3]
  after_results3
  rfl

/-- The weights buffer is written by the third stretch and by nothing after it. -/
theorem B7_v22 (c : Dev nD) : B7 m ρ c (Proc.devRef .tc main_v22) = E5 m ρ c main_v22 :=
  (StableHlo.after_of_writes_sub hostOps3 _ hostOps3_writes (by decide)).trans (B6_of_ne m ρ c main_v22 (by decide))

end Cert.KernelIdeal.Val

end
-- ==== Proof.RefSoft.lean ====
/-
  The reference program's stages read at explicit coordinates, at the ideal values. The three projections and the
  output projection are sums over the contracted axis; the scores are the scaled dot products of a query row with
  the key rows; the row maximum is a fold of max from minus infinity (taken once more against minus infinity, which
  changes nothing); the exponentials are the scores shifted by the row maximum; the row sum starts from zero; the
  weights are the exponentials over the row sum, that is, the softmax of the row of scores; the attended values are
  the weights against the value rows.
-/
import proofs.«114147_j40827959116479_2_alg».proof.Proof.Gen.ReferenceIdeal.Read
import proofs.«114147_j40827959116479_2_alg».proof.Proof.RowSoft
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx Cert.RowSoft
open scoped BigOperators

/-- Minus infinity, as the program's constant word. -/
abbrev ninf : EReal := Ideal.ofBits .f32 0xFF800000#32
/-- The scaling of the scores, one over the square root of the head width, as the program's constant word. -/
abbrev scale : EReal := Ideal.ofBits .f32 0x3E000000#32

/-- The scaled score of query q against key k in head h of batch b. -/
def refScores (Q4 K4 : (⟨4, ![2, 16, 2048, 64]⟩ : Shape).Idx → EReal) (b : Fin 2) (h : Fin 16) (q k : Fin 2048) : EReal :=
  (∑ d : Fin 64, Q4 (ix4 b h q d) * K4 (ix4 b h k d)) * scale

variable (X : (⟨S2x2048x1024, .f32⟩ : BufTy).Contents (Elt Ideal)) (Wq Wk Wv Wo : (⟨S1024x1024, .f32⟩ : BufTy).Contents (Elt Ideal))

/-- The query projection: entry (b, s, e) is row (b, s) of the input against row e of the weight matrix. -/
theorem ref_proj_q (b : Fin 2) (s : Fin 2048) (e : Fin 1024) :
    val_main_v0 (F := Ideal) X Wq (ix3 b s e) = ∑ k : Fin 1024, X (ix3 b s k) * Wq (ix2 e k) := by
  rw [val_main_v0_apply]
  refine Finset.sum_congr rfl fun k _ => ?_
  rw [show lidx_main_v0 (ix3 b s e) k = ix3 b s k from funext fun a => Fin.ext (by match a with | ⟨0, _⟩ => rfl | ⟨1, _⟩ => rfl | ⟨2, _⟩ => rfl),
    show ridx_main_v0 (ix3 b s e) k = ix2 e k from funext fun a => Fin.ext (by match a with | ⟨0, _⟩ => rfl | ⟨1, _⟩ => rfl)]

/-- The key projection: entry (b, s, e) is row (b, s) of the input against row e of the weight matrix. -/
theorem ref_proj_k (b : Fin 2) (s : Fin 2048) (e : Fin 1024) :
    val_main_v3 (F := Ideal) X Wk (ix3 b s e) = ∑ k : Fin 1024, X (ix3 b s k) * Wk (ix2 e k) := by
  rw [val_main_v3_apply]
  refine Finset.sum_congr rfl fun k _ => ?_
  rw [show lidx_main_v3 (ix3 b s e) k = ix3 b s k from funext fun a => Fin.ext (by match a with | ⟨0, _⟩ => rfl | ⟨1, _⟩ => rfl | ⟨2, _⟩ => rfl),
    show ridx_main_v3 (ix3 b s e) k = ix2 e k from funext fun a => Fin.ext (by match a with | ⟨0, _⟩ => rfl | ⟨1, _⟩ => rfl)]

/-- The value projection: entry (b, s, e) is row (b, s) of the input against row e of the weight matrix. -/
theorem ref_proj_v (b : Fin 2) (s : Fin 2048) (e : Fin 1024) :
    val_main_v6 (F := Ideal) X Wv (ix3 b s e) = ∑ k : Fin 1024, X (ix3 b s k) * Wv (ix2 e k) := by
  rw [val_main_v6_apply]
  refine Finset.sum_congr rfl fun k _ => ?_
  rw [show lidx_main_v6 (ix3 b s e) k = ix3 b s k from funext fun a => Fin.ext (by match a with | ⟨0, _⟩ => rfl | ⟨1, _⟩ => rfl | ⟨2, _⟩ => rfl),
    show ridx_main_v6 (ix3 b s e) k = ix2 e k from funext fun a => Fin.ext (by match a with | ⟨0, _⟩ => rfl | ⟨1, _⟩ => rfl)]

/-- The scores: the dot product over the head width of the query row with the key row, times the scale. -/
theorem ref_scores (b : Fin 2) (h : Fin 16) (q k : Fin 2048) :
    val_main_v11 (F := Ideal) X Wq Wk (ix4 b h q k) = refScores (val_main_v2 (F := Ideal) X Wq) (val_main_v5 (F := Ideal) X Wk) b h q k := by
  rw [val_main_v11_apply, val_main_v9_apply, val_main_v10_apply, val_main_cst_apply]
  have hl : ∀ d : Fin 64, lidx_main_v9 (ix4 b h q k) d = ix4 b h q d := fun d => funext fun a => Fin.ext (by match a with | ⟨0, _⟩ => rfl | ⟨1, _⟩ => rfl | ⟨2, _⟩ => rfl | ⟨3, _⟩ => rfl)
  have hr : ∀ d : Fin 64, ridx_main_v9 (ix4 b h q k) d = ix4 b h k d := fun d => funext fun a => Fin.ext (by match a with | ⟨0, _⟩ => rfl | ⟨1, _⟩ => rfl | ⟨2, _⟩ => rfl | ⟨3, _⟩ => rfl)
  simp only [hl, hr]
  rfl

/-- A row of scores, as a function of the key position, is the row the score formula gives. -/
theorem scores_row (b : Fin 2) (h : Fin 16) (q : Fin 2048) :
    (fun k : Fin 2048 => val_main_v11 (F := Ideal) X Wq Wk (ix4 b h q k))
      = refScores (val_main_v2 (F := Ideal) X Wq) (val_main_v5 (F := Ideal) X Wk) b h q :=
  funext fun k => ref_scores X Wq Wk b h q k

/-- The key axis of the scores is the one reduced. -/
theorem redKeys : S2x16x2048x2048.Reduces [3] S2x16x2048 := by decide

/-- The row maximum: the fold of max from minus infinity over the row of scores; the further max against minus
    infinity changes nothing. -/
theorem ref_rowmax (b : Fin 2) (h : Fin 16) (q : Fin 2048) :
    val_main_v14 (F := Ideal) X Wq Wk (ix3 b h q) = rowMax ninf (fun k : Fin 2048 => val_main_v11 (F := Ideal) X Wq Wk (ix4 b h q k)) := by
  rw [val_main_v14_apply, val_main_v13_apply, val_main_cst_1_apply]
  unfold val_main_v12
  rw [Host.reduce_eq_fold_single FloatOps.maximumf _ _ reducesTo_S2x16x2048x2048_S2x16x2048_d3 redKeys h_S_, val_main_cst_0_apply]
  have hrow : (val_main_v11 (F := Ideal) X Wq Wk ∘ redKeys.lift (ix3 b h q)) = fun k : Fin 2048 => val_main_v11 (F := Ideal) X Wq Wk (ix4 b h q k) :=
    funext fun k => congrArg (val_main_v11 (F := Ideal) X Wq Wk)
      (show redKeys.lift (ix3 b h q) k = ix4 b h q k from funext fun a => Fin.ext (by match a with | ⟨0, _⟩ => rfl | ⟨1, _⟩ => rfl | ⟨2, _⟩ => rfl | ⟨3, _⟩ => rfl))
  rw [hrow]
  exact max_rowMax ninf _

/-- The exponentials: each score shifted by its row's maximum, exponentiated. -/
theorem ref_exp (b : Fin 2) (h : Fin 16) (q k : Fin 2048) :
    val_main_v18 (F := Ideal) X Wq Wk (ix4 b h q k) = rowExp ninf (fun k' : Fin 2048 => val_main_v11 (F := Ideal) X Wq Wk (ix4 b h q k')) k := by
  rw [val_main_v18_apply, val_main_v17_apply, val_main_v16_apply, val_main_v15_apply,
    show idx_main_v15 (idx_main_v16 (ix4 b h q k)) = ix3 b h q from funext fun a => Fin.ext (by match a with | ⟨0, _⟩ => rfl | ⟨1, _⟩ => rfl | ⟨2, _⟩ => rfl),
    ref_rowmax]
  rfl

/-- The row sum of the exponentials: the sum's zero starting value adds nothing. -/
theorem ref_rowsum (b : Fin 2) (h : Fin 16) (q : Fin 2048) :
    val_main_v19 (F := Ideal) X Wq Wk (ix3 b h q)
      = ∑ k : Fin 2048, rowExp ninf (fun k' : Fin 2048 => val_main_v11 (F := Ideal) X Wq Wk (ix4 b h q k')) k := by
  rw [val_main_v19_apply, val_main_cst_2_apply, Ideal.ofBits_def, Ideal.ofBits_zero_f32, zero_add]
  refine Finset.sum_congr rfl fun k _ => ?_
  rw [show idx_main_v19 (ix3 b h q) k = ix4 b h q k from funext fun a => Fin.ext (by match a with | ⟨0, _⟩ => rfl | ⟨1, _⟩ => rfl | ⟨2, _⟩ => rfl | ⟨3, _⟩ => rfl), ref_exp]

/-- The weights: the softmax of the row of scores. -/
theorem ref_weights (b : Fin 2) (h : Fin 16) (q k : Fin 2048) :
    val_main_v22 (F := Ideal) X Wq Wk (ix4 b h q k)
      = rowSoft ninf (refScores (val_main_v2 (F := Ideal) X Wq) (val_main_v5 (F := Ideal) X Wk) b h q) k := by
  rw [val_main_v22_apply, val_main_v21_apply, val_main_v20_apply,
    show idx_main_v20 (idx_main_v21 (ix4 b h q k)) = ix3 b h q from funext fun a => Fin.ext (by match a with | ⟨0, _⟩ => rfl | ⟨1, _⟩ => rfl | ⟨2, _⟩ => rfl),
    ref_exp, ref_rowsum, scores_row]
  rfl

/-- The attended values: the weights of the query's row against the value rows, summed over the key positions. -/
theorem ref_attended (b : Fin 2) (h : Fin 16) (q : Fin 2048) (d : Fin 64) :
    val_main_v23 (F := Ideal) X Wq Wk Wv (ix4 b h q d)
      = ∑ k : Fin 2048, rowSoft ninf (refScores (val_main_v2 (F := Ideal) X Wq) (val_main_v5 (F := Ideal) X Wk) b h q) k * val_main_v8 (F := Ideal) X Wv (ix4 b h k d) := by
  rw [val_main_v23_apply]
  refine Finset.sum_congr rfl fun k _ => ?_
  rw [show lidx_main_v23 (ix4 b h q d) k = ix4 b h q k from funext fun a => Fin.ext (by match a with | ⟨0, _⟩ => rfl | ⟨1, _⟩ => rfl | ⟨2, _⟩ => rfl | ⟨3, _⟩ => rfl),
    show ridx_main_v23 (ix4 b h q d) k = ix4 b h k d from funext fun a => Fin.ext (by match a with | ⟨0, _⟩ => rfl | ⟨1, _⟩ => rfl | ⟨2, _⟩ => rfl | ⟨3, _⟩ => rfl),
    ref_weights]

/-- The output projection: entry (b, s, e) is row (b, s) of the merged heads against row e of the output weights. -/
theorem ref_out (b : Fin 2) (s : Fin 2048) (e : Fin 1024) :
    val_main_v26 (F := Ideal) X Wq Wk Wv Wo (ix3 b s e) = ∑ j : Fin 1024, val_main_v25 (F := Ideal) X Wq Wk Wv (ix3 b s j) * Wo (ix2 e j) := by
  rw [val_main_v26_apply]
  refine Finset.sum_congr rfl fun j _ => ?_
  rw [show lidx_main_v26 (ix3 b s e) j = ix3 b s j from funext fun a => Fin.ext (by match a with | ⟨0, _⟩ => rfl | ⟨1, _⟩ => rfl | ⟨2, _⟩ => rfl),
    show ridx_main_v26 (ix3 b s e) j = ix2 e j from funext fun a => Fin.ext (by match a with | ⟨0, _⟩ => rfl | ⟨1, _⟩ => rfl)]

end Cert.ReferenceIdeal.RefVal

end
-- ==== Proof.Bridge.lean ====
/-
  The kernel program's two returned buffers are the reference's two results of the same arguments.

  Region 0's product, cut into its three column blocks, is each projection of the reference flattened to
  [4096, 1024]: at (i, e) both are the sum over k of x (i / 2048, i % 2048, k) · W (e, k), the stacked and transposed
  weights read at (k, 1024·p + e) being W_p (e, k). Re-laying is the same operations on both sides (two reshapes in a
  row are one), so region 1 reads the reference's queries, keys and values with batch and head merged, and its weights
  and attended values are the reference's, entry by entry: the same scores, the same row softmax, the same sums.
  The attended values go back through the same re-laying, and region 2's product with the transposed output weights,
  re-laid, is the reference's last projection. Sums over one index set in any order are equal on the extended reals,
  so no hypothesis on the inputs is used.
-/
import proofs.«114147_j40827959116479_2_alg».proof.Proof.KI.Host
import proofs.«114147_j40827959116479_2_alg».proof.Proof.RefSoft
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Frm Cert.KernelIdeal.Val
open Cert.RowSoft
open scoped BigOperators

/-! ## Reshapes -/

/-- Two reshapes in a row are one. -/
theorem shapeCast_trans {s t u : Shape} {α : Type} (v : s.Idx → α) (h : s.ShapeCasts t) (h' : t.ShapeCasts u) (h'' : s.ShapeCasts u) :
    shapeCast u (shapeCast t v h) h' = shapeCast u v h'' :=
  funext fun j => congrArg v (Shape.reshapeEquiv_reshapeEquiv h h' j)

/-- A [2, 2048, 1024] array flattened to [4096, 1024], at (i, k), is the array at (i / 2048, i % 2048, k). -/
theorem flat_apply (Y : (⟨3, ![2, 2048, 1024]⟩ : Shape).Idx → EReal) (h : (⟨3, ![2, 2048, 1024]⟩ : Shape).ShapeCasts ⟨2, ![4096, 1024]⟩)
    (i : Fin 4096) (k : Fin 1024) :
    shapeCast ⟨2, ![4096, 1024]⟩ Y h (ix2 i k)
      = Y (ix3 (⟨i.val / 2048, by have := i.isLt; omega⟩ : Fin 2) (⟨i.val % 2048, by omega⟩ : Fin 2048) k) := by
  refine shapeCast_apply Y h _ _ ?_
  rw [Shape.rowMajor_val_three, Shape.rowMajor_val_two]
  show (i.val / 2048 * 2048 + i.val % 2048) * 1024 + k.val = i.val * 1024 + k.val
  omega

/-- A [4096, 1024] array viewed [2, 2048, 1024], at (b, s, e), is the array at (2048·b + s, e). -/
theorem unflat_apply (P : (⟨2, ![4096, 1024]⟩ : Shape).Idx → EReal) (h : (⟨2, ![4096, 1024]⟩ : Shape).ShapeCasts ⟨3, ![2, 2048, 1024]⟩)
    (b : Fin 2) (s : Fin 2048) (e : Fin 1024) :
    shapeCast ⟨3, ![2, 2048, 1024]⟩ P h (ix3 b s e)
      = P (ix2 (⟨2048 * b.val + s.val, by have := b.isLt; have := s.isLt; omega⟩ : Fin 4096) e) := by
  refine shapeCast_apply P h _ _ ?_
  rw [Shape.rowMajor_val_three, Shape.rowMajor_val_two]
  show (2048 * b.val + s.val) * 1024 + e.val = (b.val * 2048 + s.val) * 1024 + e.val
  omega

/-- A [2, 16, 2048, n] array with batch and head merged, at (16·b + h, q, d), is the array at (b, h, q, d). -/
theorem merge_apply {n : ℕ} (Y : (⟨4, ![2, 16, 2048, n]⟩ : Shape).Idx → EReal) (hc : (⟨4, ![2, 16, 2048, n]⟩ : Shape).ShapeCasts ⟨3, ![32, 2048, n]⟩)
    (b : Fin 2) (h : Fin 16) (q : Fin 2048) (d : Fin n) :
    shapeCast ⟨3, ![32, 2048, n]⟩ Y hc (ix3 (⟨16 * b.val + h.val, by have := b.isLt; have := h.isLt; omega⟩ : Fin 32) q d) = Y (ix4 b h q d) := by
  refine shapeCast_apply Y hc _ _ ?_
  rw [Shape.rowMajor_val_three, Shape.rowMajor_val_four]
  show ((b.val * 16 + h.val) * 2048 + q.val) * n + d.val = ((16 * b.val + h.val) * 2048 + q.val) * n + d.val
  rw [show b.val * 16 + h.val = 16 * b.val + h.val by omega]

/-- A [32, 2048, n] array with the head axis split off the batch, at (b, h, q, d), is the array at (16·b + h, q, d). -/
theorem split_apply {n : ℕ} (W : (⟨3, ![32, 2048, n]⟩ : Shape).Idx → EReal) (hc : (⟨3, ![32, 2048, n]⟩ : Shape).ShapeCasts ⟨4, ![2, 16, 2048, n]⟩)
    (b : Fin 2) (h : Fin 16) (q : Fin 2048) (d : Fin n) :
    shapeCast ⟨4, ![2, 16, 2048, n]⟩ W hc (ix4 b h q d) = W (ix3 (⟨16 * b.val + h.val, by have := b.isLt; have := h.isLt; omega⟩ : Fin 32) q d) := by
  refine shapeCast_apply W hc _ _ ?_
  rw [Shape.rowMajor_val_three, Shape.rowMajor_val_four]
  show ((16 * b.val + h.val) * 2048 + q.val) * n + d.val = ((b.val * 16 + h.val) * 2048 + q.val) * n + d.val
  rw [show b.val * 16 + h.val = 16 * b.val + h.val by omega]

section Args

variable (X : (⟨3, ![2, 2048, 1024]⟩ : Shape).Idx → EReal) (Wq Wk Wv Wo : (⟨2, ![1024, 1024]⟩ : Shape).Idx → EReal)

/-! ## The stacked, transposed weights -/

/-- The three weight matrices stacked along the rows, transposed. -/
def stackT : FVec Ideal S1024x3072 .f32 :=
  transpose S1024x3072 [1, 0] (concatenate (α := Ideal .f32) S3072x1024 0 [⟨S1024x1024, Wq⟩, ⟨S1024x1024, Wk⟩, ⟨S1024x1024, Wv⟩]
    concatenates_S1024x1024_S1024x1024_S1024x1024_S3072x1024_d0) transposes_S3072x1024_S1024x3072_1_0

theorem stackT_q (k e : Fin 1024) : stackT Wq Wk Wv (ix2 k (⟨e.val, by have := e.isLt; omega⟩ : Fin 3072)) = Wq (ix2 e k) := by
  unfold stackT
  rw [transpose_apply [1, 0] _ transposes_S3072x1024_S1024x3072_1_0 (ix2 k (⟨e.val, by have := e.isLt; omega⟩ : Fin 3072))
    (ix2 (⟨e.val, by have := e.isLt; omega⟩ : Fin 3072) k) (fun b => match b with | ⟨0, _⟩ => rfl | ⟨1, _⟩ => rfl)]
  exact concatenate_apply_piece (α := Ideal .f32) (t := S3072x1024) (0 : Fin 2) [⟨S1024x1024, Wq⟩, ⟨S1024x1024, Wk⟩, ⟨S1024x1024, Wv⟩]
    concatenates_S1024x1024_S1024x1024_S1024x1024_S3072x1024_d0 (ix2 (⟨e.val, by have := e.isLt; omega⟩ : Fin 3072) k)
    0 (by show (0 : ℕ) < 3; decide) S1024x1024 Wq rfl rfl 0 rfl (ix2 e k)
    (fun b hb => match b, hb with | ⟨0, _⟩, hb => absurd rfl hb | ⟨1, _⟩, _ => rfl) (by show 0 + e.val = e.val; omega)

theorem stackT_k (k e : Fin 1024) : stackT Wq Wk Wv (ix2 k (⟨1024 + e.val, by have := e.isLt; omega⟩ : Fin 3072)) = Wk (ix2 e k) := by
  unfold stackT
  rw [transpose_apply [1, 0] _ transposes_S3072x1024_S1024x3072_1_0 (ix2 k (⟨1024 + e.val, by have := e.isLt; omega⟩ : Fin 3072))
    (ix2 (⟨1024 + e.val, by have := e.isLt; omega⟩ : Fin 3072) k) (fun b => match b with | ⟨0, _⟩ => rfl | ⟨1, _⟩ => rfl)]
  exact concatenate_apply_piece (α := Ideal .f32) (t := S3072x1024) (0 : Fin 2) [⟨S1024x1024, Wq⟩, ⟨S1024x1024, Wk⟩, ⟨S1024x1024, Wv⟩]
    concatenates_S1024x1024_S1024x1024_S1024x1024_S3072x1024_d0 (ix2 (⟨1024 + e.val, by have := e.isLt; omega⟩ : Fin 3072) k)
    1 (by show (1 : ℕ) < 3; decide) S1024x1024 Wk rfl rfl 1024 rfl (ix2 e k)
    (fun b hb => match b, hb with | ⟨0, _⟩, hb => absurd rfl hb | ⟨1, _⟩, _ => rfl) rfl

theorem stackT_v (k e : Fin 1024) : stackT Wq Wk Wv (ix2 k (⟨2048 + e.val, by have := e.isLt; omega⟩ : Fin 3072)) = Wv (ix2 e k) := by
  unfold stackT
  rw [transpose_apply [1, 0] _ transposes_S3072x1024_S1024x3072_1_0 (ix2 k (⟨2048 + e.val, by have := e.isLt; omega⟩ : Fin 3072))
    (ix2 (⟨2048 + e.val, by have := e.isLt; omega⟩ : Fin 3072) k) (fun b => match b with | ⟨0, _⟩ => rfl | ⟨1, _⟩ => rfl)]
  exact concatenate_apply_piece (α := Ideal .f32) (t := S3072x1024) (0 : Fin 2) [⟨S1024x1024, Wq⟩, ⟨S1024x1024, Wk⟩, ⟨S1024x1024, Wv⟩]
    concatenates_S1024x1024_S1024x1024_S1024x1024_S3072x1024_d0 (ix2 (⟨2048 + e.val, by have := e.isLt; omega⟩ : Fin 3072) k)
    2 (by show (2 : ℕ) < 3; decide) S1024x1024 Wv rfl rfl 2048 rfl (ix2 e k)
    (fun b hb => match b, hb with | ⟨0, _⟩, hb => absurd rfl hb | ⟨1, _⟩, _ => rfl) rfl

/-! ## Region 0's product, a column block at a time -/

/-- The flattened input, as region 0 reads it. -/
def flatX : FVec Ideal S4096x1024 .f32 := shapeCast S4096x1024 X shapeCasts_S2x2048x1024_S4096x1024

theorem slice_q : extractStridedSlice S4096x1024 ![0, 0] (prodA (flatX X) (stackT Wq Wk Wv)) slices_S4096x3072_S4096x1024_0_0
    = shapeCast S4096x1024 (Cert.ReferenceIdeal.Read.val_main_v0 (F := Ideal) X Wq) shapeCasts_S2x2048x1024_S4096x1024 := by
  funext j
  obtain ⟨i, e, rfl⟩ : ∃ (i : Fin 4096) (e : Fin 1024), j = ix2 i e := ⟨j 0, j 1, eq_ix2 j⟩
  rw [extractStridedSlice_apply ![0, 0] _ slices_S4096x3072_S4096x1024_0_0 (ix2 i e) (ix2 i (⟨e.val, by have := e.isLt; omega⟩ : Fin 3072))
    (fun a => match a with | ⟨0, _⟩ => by show i.val = 0 + i.val; omega | ⟨1, _⟩ => by show e.val = 0 + e.val; omega)]
  rw [prodA_apply, flat_apply, Cert.ReferenceIdeal.RefVal.ref_proj_q]
  refine Finset.sum_congr rfl fun k _ => ?_
  unfold flatX
  rw [flat_apply, stackT_q]

theorem slice_k : extractStridedSlice S4096x1024 ![0, 1024] (prodA (flatX X) (stackT Wq Wk Wv)) slices_S4096x3072_S4096x1024_0_1024
    = shapeCast S4096x1024 (Cert.ReferenceIdeal.Read.val_main_v3 (F := Ideal) X Wk) shapeCasts_S2x2048x1024_S4096x1024 := by
  funext j
  obtain ⟨i, e, rfl⟩ : ∃ (i : Fin 4096) (e : Fin 1024), j = ix2 i e := ⟨j 0, j 1, eq_ix2 j⟩
  rw [extractStridedSlice_apply ![0, 1024] _ slices_S4096x3072_S4096x1024_0_1024 (ix2 i e) (ix2 i (⟨1024 + e.val, by have := e.isLt; omega⟩ : Fin 3072))
    (fun a => match a with | ⟨0, _⟩ => by show i.val = 0 + i.val; omega | ⟨1, _⟩ => rfl)]
  rw [prodA_apply, flat_apply, Cert.ReferenceIdeal.RefVal.ref_proj_k]
  refine Finset.sum_congr rfl fun k _ => ?_
  unfold flatX
  rw [flat_apply, stackT_k]

theorem slice_v : extractStridedSlice S4096x1024 ![0, 2048] (prodA (flatX X) (stackT Wq Wk Wv)) slices_S4096x3072_S4096x1024_0_2048
    = shapeCast S4096x1024 (Cert.ReferenceIdeal.Read.val_main_v6 (F := Ideal) X Wv) shapeCasts_S2x2048x1024_S4096x1024 := by
  funext j
  obtain ⟨i, e, rfl⟩ : ∃ (i : Fin 4096) (e : Fin 1024), j = ix2 i e := ⟨j 0, j 1, eq_ix2 j⟩
  rw [extractStridedSlice_apply ![0, 2048] _ slices_S4096x3072_S4096x1024_0_2048 (ix2 i e) (ix2 i (⟨2048 + e.val, by have := e.isLt; omega⟩ : Fin 3072))
    (fun a => match a with | ⟨0, _⟩ => by show i.val = 0 + i.val; omega | ⟨1, _⟩ => rfl)]
  rw [prodA_apply, flat_apply, Cert.ReferenceIdeal.RefVal.ref_proj_v]
  refine Finset.sum_congr rfl fun k _ => ?_
  unfold flatX
  rw [flat_apply, stackT_v]

/-! ## Re-laying into heads -/

theorem h_flat_heads : (⟨3, ![2, 2048, 1024]⟩ : Shape).ShapeCasts S2x2048x16x64 := by decide

/-- A projection flattened and split into heads is the reference's head layout of it, batch and head merged. -/
theorem toHeads_flat (Y : (⟨3, ![2, 2048, 1024]⟩ : Shape).Idx → EReal) :
    toHeads (shapeCast S4096x1024 Y shapeCasts_S2x2048x1024_S4096x1024)
      = shapeCast S32x2048x64 (transpose S2x16x2048x64 [0, 2, 1, 3] (shapeCast S2x2048x16x64 Y h_flat_heads)
          transposes_S2x2048x16x64_S2x16x2048x64_0_2_1_3) shapeCasts_S2x16x2048x64_S32x2048x64 := by
  unfold toHeads
  rw [shapeCast_trans Y shapeCasts_S2x2048x1024_S4096x1024 shapeCasts_S4096x1024_S2x2048x16x64 h_flat_heads]

theorem heads_q : toHeads (shapeCast S4096x1024 (Cert.ReferenceIdeal.Read.val_main_v0 (F := Ideal) X Wq) shapeCasts_S2x2048x1024_S4096x1024)
    = shapeCast S32x2048x64 (Cert.ReferenceIdeal.Read.val_main_v2 (F := Ideal) X Wq) shapeCasts_S2x16x2048x64_S32x2048x64 := by
  rw [toHeads_flat]; rfl
theorem heads_k : toHeads (shapeCast S4096x1024 (Cert.ReferenceIdeal.Read.val_main_v3 (F := Ideal) X Wk) shapeCasts_S2x2048x1024_S4096x1024)
    = shapeCast S32x2048x64 (Cert.ReferenceIdeal.Read.val_main_v5 (F := Ideal) X Wk) shapeCasts_S2x16x2048x64_S32x2048x64 := by
  rw [toHeads_flat]; rfl
theorem heads_v : toHeads (shapeCast S4096x1024 (Cert.ReferenceIdeal.Read.val_main_v6 (F := Ideal) X Wv) shapeCasts_S2x2048x1024_S4096x1024)
    = shapeCast S32x2048x64 (Cert.ReferenceIdeal.Read.val_main_v8 (F := Ideal) X Wv) shapeCasts_S2x16x2048x64_S32x2048x64 := by
  rw [toHeads_flat]; rfl

/-! ## Region 1: the weights and the attended values -/

/-- Region 1's queries, keys and values. -/
abbrev Q3 : FVec Ideal S32x2048x64 .f32 := shapeCast S32x2048x64 (Cert.ReferenceIdeal.Read.val_main_v2 (F := Ideal) X Wq) shapeCasts_S2x16x2048x64_S32x2048x64
abbrev K3 : FVec Ideal S32x2048x64 .f32 := shapeCast S32x2048x64 (Cert.ReferenceIdeal.Read.val_main_v5 (F := Ideal) X Wk) shapeCasts_S2x16x2048x64_S32x2048x64
abbrev V3 : FVec Ideal S32x2048x64 .f32 := shapeCast S32x2048x64 (Cert.ReferenceIdeal.Read.val_main_v8 (F := Ideal) X Wv) shapeCasts_S2x16x2048x64_S32x2048x64

/-- The scores of head (b, h) in the merged layout are the reference's scores of that head. -/
theorem headScores_merge (b : Fin 2) (h : Fin 16) (q : Fin 2048) :
    headScores (Q3 X Wq) (K3 X Wk) (⟨16 * b.val + h.val, by have := b.isLt; have := h.isLt; omega⟩ : Fin 32) q
      = Cert.ReferenceIdeal.RefVal.refScores (Cert.ReferenceIdeal.Read.val_main_v2 (F := Ideal) X Wq) (Cert.ReferenceIdeal.Read.val_main_v5 (F := Ideal) X Wk) b h q := by
  funext k
  unfold headScores Cert.ReferenceIdeal.RefVal.refScores
  refine congrArg (· * Cert.ReferenceIdeal.RefVal.scale) (Finset.sum_congr rfl fun d _ => ?_)
  dsimp only [Q3, K3]
  rw [merge_apply, merge_apply]

theorem weights_eq : shapeCast S2x16x2048x2048 (attnW (Q3 X Wq) (K3 X Wk)) shapeCasts_S32x2048x2048_S2x16x2048x2048
    = Cert.ReferenceIdeal.Read.val_main_v22 (F := Ideal) X Wq Wk := by
  funext i
  obtain ⟨b, h, q, k, rfl⟩ : ∃ (b : Fin 2) (h : Fin 16) (q k : Fin 2048), i = ix4 b h q k := ⟨i 0, i 1, i 2, i 3, eq_ix4 i⟩
  rw [split_apply, attnW_apply, headScores_merge, Cert.ReferenceIdeal.RefVal.ref_weights]

theorem attended_eq : shapeCast S2x16x2048x64 (attnO (Q3 X Wq) (K3 X Wk) (V3 X Wv)) shapeCasts_S32x2048x64_S2x16x2048x64
    = Cert.ReferenceIdeal.Read.val_main_v23 (F := Ideal) X Wq Wk Wv := by
  funext i
  obtain ⟨b, h, q, d, rfl⟩ : ∃ (b : Fin 2) (h : Fin 16) (q : Fin 2048) (d : Fin 64), i = ix4 b h q d := ⟨i 0, i 1, i 2, i 3, eq_ix4 i⟩
  rw [split_apply, attnO_apply, headScores_merge, Cert.ReferenceIdeal.RefVal.ref_attended]
  refine Finset.sum_congr rfl fun k _ => ?_
  dsimp only [V3]
  rw [merge_apply]

/-! ## Region 2: the output projection -/

theorem h_heads_flat : S2x2048x16x64.ShapeCasts (⟨3, ![2, 2048, 1024]⟩ : Shape) := by decide

/-- The attended values re-laid for region 2 are the reference's, flattened. -/
theorem fromHeads_eq : fromHeads (attnO (Q3 X Wq) (K3 X Wk) (V3 X Wv))
    = shapeCast S4096x1024 (Cert.ReferenceIdeal.Read.val_main_v25 (F := Ideal) X Wq Wk Wv) shapeCasts_S2x2048x1024_S4096x1024 := by
  unfold fromHeads
  rw [attended_eq]
  exact (shapeCast_trans (Cert.ReferenceIdeal.Read.val_main_v24 (F := Ideal) X Wq Wk Wv) h_heads_flat shapeCasts_S2x2048x1024_S4096x1024
    shapeCasts_S2x2048x16x64_S4096x1024).symm

/-- The output weights transposed, at (j, e), are the weights at (e, j). -/
theorem woT_apply (j e : Fin 1024) :
    transpose S1024x1024 [1, 0] Wo transposes_S1024x1024_S1024x1024_1_0 (ix2 j e) = Wo (ix2 e j) :=
  transpose_apply [1, 0] Wo transposes_S1024x1024_S1024x1024_1_0 (ix2 j e) (ix2 e j) (fun b => match b with | ⟨0, _⟩ => rfl | ⟨1, _⟩ => rfl)

theorem out_eq : shapeCast S2x2048x1024
      (prodA (shapeCast S4096x1024 (Cert.ReferenceIdeal.Read.val_main_v25 (F := Ideal) X Wq Wk Wv) shapeCasts_S2x2048x1024_S4096x1024)
        (transpose S1024x1024 [1, 0] Wo transposes_S1024x1024_S1024x1024_1_0)) shapeCasts_S4096x1024_S2x2048x1024
    = Cert.ReferenceIdeal.Read.val_main_v26 (F := Ideal) X Wq Wk Wv Wo := by
  funext i
  obtain ⟨b, s, e, rfl⟩ : ∃ (b : Fin 2) (s : Fin 2048) (e : Fin 1024), i = ix3 b s e := ⟨i 0, i 1, i 2, eq_ix3 i⟩
  rw [unflat_apply, prodA_apply, Cert.ReferenceIdeal.RefVal.ref_out]
  refine Finset.sum_congr rfl fun j _ => ?_
  rw [flat_apply, woT_apply]
  refine congrArg (fun t => Cert.ReferenceIdeal.Read.val_main_v25 (F := Ideal) X Wq Wk Wv t * Wo (ix2 e j)) ?_
  funext a
  apply Fin.ext
  match a with
  | ⟨0, _⟩ => show (2048 * b.val + s.val) / 2048 = b.val; have := s.isLt; omega
  | ⟨1, _⟩ => show (2048 * b.val + s.val) % 2048 = s.val; have := s.isLt; omega
  | ⟨2, _⟩ => rfl

end Args

/-! ## The two returned buffers -/

variable (m : (ℓ : Loc nD τ sig) → Buf (Elt Ideal) ℓ) (ρ : Dev nD → PrngReg)

/-- Region 0's output is the product of the flattened input by the stacked, transposed weights. -/
theorem E2_v5_eq (c : Dev nD) : E2 m ρ c main_v5
    = prodA (flatX (m ((c : Thread nD τ).loc main_arg0))) (stackT (m ((c : Thread nD τ).loc main_arg1)) (m ((c : Thread nD τ).loc main_arg2)) (m ((c : Thread nD τ).loc main_arg3))) := by
  rw [E2_v5, E1_v1, E1_v4]; rfl

theorem E3_v11_eq (c : Dev nD) : E3 m ρ c main_v11 = Q3 (m ((c : Thread nD τ).loc main_arg0)) (m ((c : Thread nD τ).loc main_arg1)) := by
  rw [E3_v11, E2_v5_eq, slice_q, heads_q]
theorem E3_v14_eq (c : Dev nD) : E3 m ρ c main_v14 = K3 (m ((c : Thread nD τ).loc main_arg0)) (m ((c : Thread nD τ).loc main_arg2)) := by
  rw [E3_v14, E2_v5_eq, slice_k, heads_k]
theorem E3_v17_eq (c : Dev nD) : E3 m ρ c main_v17 = V3 (m ((c : Thread nD τ).loc main_arg0)) (m ((c : Thread nD τ).loc main_arg3)) := by
  rw [E3_v17, E2_v5_eq, slice_v, heads_v]

/-- The returned weights are the reference's. -/
theorem weights_final (c : Dev nD) : B7 m ρ c (Proc.devRef .tc main_v22)
    = Cert.ReferenceIdeal.Read.val_main_v22 (F := Ideal) (m ((c : Thread nD τ).loc main_arg0)) (m ((c : Thread nD τ).loc main_arg1)) (m ((c : Thread nD τ).loc main_arg2)) := by
  rw [B7_v22, E5_v22, E4_v18_1, E3_v11_eq, E3_v14_eq]
  exact weights_eq _ _ _

/-- The returned output is the reference's. -/
theorem out_final (c : Dev nD) : B7 m ρ c (Proc.devRef .tc main_v26)
    = Cert.ReferenceIdeal.Read.val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [B7_v26, E6_v25, E5_v21, E5_v24, E4_v18_0, E4_arg4, E3_v11_eq, E3_v14_eq, E3_v17_eq, fromHeads_eq]
  exact out_eq _ _ _ _ _

end Cert.Bridge

end
-- ==== Proof.lean ====
/-
  Multi-head self-attention over x : [2, 2048, 1024] with 16 heads of width 64, computed by three tiled kernels
  (a fused query/key/value projection, the attention of each head on tiles of 512 queries, the output projection)
  among re-laying operations, against the textbook formulation with einsum and softmax; both return the projected
  output [2, 2048, 1024] and the attention weights [2, 16, 2048, 2048].

  On the extended reals, where a change of float format is the identity and every operation is exact, the two
  programs compute the same functions of the arguments, entry by entry: each projection entry is the same sum over the
  model dimension (the kernel reads the three weight matrices stacked and transposed, the reference reads each one
  with its second axis contracted); the scores, scaled by the same 1/8, are the same sums over the head dimension; both
  take the row maximum from minus infinity (the reference takes one more maximum with minus infinity, which changes
  nothing), shift, exponentiate, and divide by the row sum; the attended values and the output projection are again
  the same sums. Only commutativity and associativity of sums are used, so the finiteness of the inputs is never
  opened. The tiling of the three kernels covers each output array exactly once.

  Every program runs to the end without a fault and leaves its arguments unchanged: for the two kernel programs
  through the launch theorems for a program of several kernel regions among host operations, each body run once
  symbolically; for the reference through its generated run. The idealized kernel program is the kernel program's own
  text (no rewrite was applied), so that conjunct is trivial.
-/
import proofs.«114147_j40827959116479_2_alg».proof.Defs
import proofs.«114147_j40827959116479_2_alg».proof.Proof.Gen.Kernel
import proofs.«114147_j40827959116479_2_alg».proof.Proof.Gen.Kernel.Skeleton
import proofs.«114147_j40827959116479_2_alg».proof.Proof.Gen.Kernel.Launch
import proofs.«114147_j40827959116479_2_alg».proof.Proof.Gen.Kernel.Regions
import proofs.«114147_j40827959116479_2_alg».proof.Proof.Gen.Kernel.Points
import proofs.«114147_j40827959116479_2_alg».proof.Proof.Gen.KernelIdeal
import proofs.«114147_j40827959116479_2_alg».proof.Proof.Gen.KernelIdeal.Skeleton
import proofs.«114147_j40827959116479_2_alg».proof.Proof.Gen.KernelIdeal.Launch
import proofs.«114147_j40827959116479_2_alg».proof.Proof.Gen.KernelIdeal.Regions
import proofs.«114147_j40827959116479_2_alg».proof.Proof.Gen.KernelIdeal.Points
import proofs.«114147_j40827959116479_2_alg».proof.Proof.Gen.ReferenceIdeal
import proofs.«114147_j40827959116479_2_alg».proof.Proof.Gen.ReferenceIdeal.Run
import proofs.«114147_j40827959116479_2_alg».proof.Proof.Gen.ReferenceIdeal.Read
import proofs.«114147_j40827959116479_2_alg».proof.Proof.Gen.Pre_finite_inputs
import proofs.«114147_j40827959116479_2_alg».proof.Proof.KB.Run
import proofs.«114147_j40827959116479_2_alg».proof.Proof.KI.Run
import proofs.«114147_j40827959116479_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel program was idealized. -/
theorem preserves : Cert.preserves_Kernel_KernelIdeal := trivial

/-- From memories agreeing on the arguments both programs end with the same two results: the kernel program's are the
    contents its last boundary leaves in the two returned buffers, and the reference's terms of the same arguments
    are those contents. -/
theorem algebraic : Cert.algebraic_KernelIdeal_ReferenceIdeal := by
  intro m ρ m' ρ' _ hagree
  refine ⟨fun c => Cert.KernelIdeal.Frm.B7 m ρ c (Proc.devRef .tc Cert.KernelIdeal.main_v26),
    fun c => Cert.KernelIdeal.Frm.B7 m ρ c (Proc.devRef .tc Cert.KernelIdeal.main_v22),
    Cert.KernelIdeal.Frm.run_vals m ρ, ?_⟩
  refine (θ_run Cert.ReferenceIdeal.defs _ _).mono (fun r h c => ?_) (Cert.ReferenceIdeal.Value.run (F := Ideal) m' ρ')
  obtain ⟨h26, h22, hargs⟩ := h c
  obtain ⟨a0, a1, a2, a3, a4⟩ := hagree c
  refine ⟨?_, ?_, hargs⟩
  · rw [h26, Cert.ReferenceIdeal.Read.val_main_v26_eq, a0, a1, a2, a3, a4]
    exact (Cert.Bridge.out_final m ρ c).symm
  · rw [h22, Cert.ReferenceIdeal.Read.val_main_v22_eq, a0, a1, a2]
    exact (Cert.Bridge.weights_final m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
